-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x75 : Shape := ⟨2, ![50000, 75]⟩
abbrev S2x600000 : Shape := ⟨2, ![2, 600000]⟩
abbrev S600000 : Shape := ⟨1, ![600000]⟩
abbrev S600000x2 : Shape := ⟨2, ![600000, 2]⟩
abbrev S75x128 : Shape := ⟨2, ![75, 128]⟩
abbrev S128 : Shape := ⟨1, ![128]⟩
abbrev S128x75 : Shape := ⟨2, ![128, 75]⟩
abbrev S128x128 : Shape := ⟨2, ![128, 128]⟩
abbrev S128x32 : Shape := ⟨2, ![128, 32]⟩
abbrev S32 : Shape := ⟨1, ![32]⟩
abbrev S32x128 : Shape := ⟨2, ![32, 128]⟩
abbrev S_ : Shape := ⟨0, ![]⟩

class Facts : Prop where
  bcast_S_S50000x75 : S_.BroadcastsInDim S50000x75 (![] : Fin 0 → Fin S50000x75.rank)
  reducesTo_S50000x75_S_d0_1 : S50000x75.ReducesTo [0, 1] S_
  h_S_ : 0 < S_.numel
  bcast_S_S600000 : S_.BroadcastsInDim S600000 (![] : Fin 0 → Fin S600000.rank)
  reducesTo_S600000_S_d0 : S600000.ReducesTo [0] S_
  bcast_S_S600000x2 : S_.BroadcastsInDim S600000x2 (![] : Fin 0 → Fin S600000x2.rank)
  reducesTo_S600000x2_S_d0_1 : S600000x2.ReducesTo [0, 1] S_
  bcast_S_S75x128 : S_.BroadcastsInDim S75x128 (![] : Fin 0 → Fin S75x128.rank)
  reducesTo_S75x128_S_d0_1 : S75x128.ReducesTo [0, 1] S_
  bcast_S_S128 : S_.BroadcastsInDim S128 (![] : Fin 0 → Fin S128.rank)
  reducesTo_S128_S_d0 : S128.ReducesTo [0] S_
  bcast_S_S128x75 : S_.BroadcastsInDim S128x75 (![] : Fin 0 → Fin S128x75.rank)
  reducesTo_S128x75_S_d0_1 : S128x75.ReducesTo [0, 1] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_

variable [Facts]

def fn_part5 {F : FTy → Type} [FloatOps F] (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  main_v88

def fn_part4 {F : FTy → Type} [FloatOps F] (main_arg15 : FVec F S128x32 .f32) (main_arg16 : FVec F S32 .f32) (main_arg17 : FVec F S32x128 .f32) (main_arg18 : FVec F S32 .f32) (main_v63 : IVec S_ 1) (main_v67 : IVec S_ 1) : IVec S_ 1 :=
  let main_v68 : IVec S_ 1 := andi main_v63 main_v67
  let main_v69 : FVec F S128x32 .f32 := Host.absf main_arg15
  let main_cst_26 : FVec F S_ .f32 := constant S_ .f32 0x7F800000#32
  let main_v70 : FVec F S128x32 .f32 := broadcastInDim S128x32 ![] bcast_S_S128x32 main_cst_26
  let main_v71 : IVec S128x32 1 := cmpf .olt main_v69 main_v70
  let main_c_27 : IVec S_ 1 := constantI S_ 1 1#1
  let main_v72 : IVec S_ 1 := (fun x v => Host.reduce IntOp.andi x v reducesTo_S128x32_S_d0_1 h_S_) main_v71 main_c_27
  let main_v73 : IVec S_ 1 := andi main_v68 main_v72
  let main_v74 : FVec F S32 .f32 := Host.absf main_arg16
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x128 .f32 := Host.absf main_arg17
  let main_cst_30 : FVec F S_ .f32 := constant S_ .f32 0x7F800000#32
  let main_v80 : FVec F S32x128 .f32 := broadcastInDim S32x128 ![] bcast_S_S32x128 main_cst_30
  let main_v81 : IVec S32x128 1 := cmpf .olt main_v79 main_v80
  let main_c_31 : IVec S_ 1 := constantI S_ 1 1#1
  let main_v82 : IVec S_ 1 := (fun x v => Host.reduce IntOp.andi x v reducesTo_S32x128_S_d0_1 h_S_) main_v81 main_c_31
  let main_v83 : IVec S_ 1 := andi main_v78 main_v82
  let main_v84 : FVec F S32 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128x128 .f32) (main_arg13 : FVec F S128 .f32) (main_arg14 : FVec F S128x32 .f32) (main_arg15 : FVec F S128x32 .f32) (main_arg16 : FVec F S32 .f32) (main_arg17 : FVec F S32x128 .f32) (main_arg18 : FVec F S32 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x32 .f32 := Host.absf main_arg14
  let main_cst_24 : FVec F S_ .f32 := constant S_ .f32 0x7F800000#32
  let main_v65 : FVec F S128x32 .f32 := broadcastInDim S128x32 ![] bcast_S_S128x32 main_cst_24
  let main_v66 : IVec S128x32 1 := cmpf .olt main_v64 main_v65
  let main_c_25 : IVec S_ 1 := constantI S_ 1 1#1
  let main_v67 : IVec S_ 1 := (fun x v => Host.reduce IntOp.andi x v reducesTo_S128x32_S_d0_1 h_S_) main_v66 main_c_25
  fn_part4 (F := F) main_arg15 main_arg16 main_arg17 main_arg18 main_v63 main_v67

def fn_part2 {F : FTy → Type} [FloatOps F] (main_arg8 : FVec F S128 .f32) (main_arg9 : FVec F S128x128 .f32) (main_arg10 : FVec F S128x128 .f32) (main_arg11 : FVec F S128 .f32) (main_arg12 : FVec F S128x128 .f32) (main_arg13 : FVec F S128 .f32) (main_arg14 : FVec F S128x32 .f32) (main_arg15 : FVec F S128x32 .f32) (main_arg16 : FVec F S32 .f32) (main_arg17 : FVec F S32x128 .f32) (main_arg18 : FVec F S32 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_v48 main_v49 main_v50

def fn_part1 {F : FTy → Type} [FloatOps F] (main_arg5 : FVec F S75x128 .f32) (main_arg6 : FVec F S128 .f32) (main_arg7 : FVec F S128x75 .f32) (main_arg8 : FVec F S128 .f32) (main_arg9 : FVec F S128x128 .f32) (main_arg10 : FVec F S128x128 .f32) (main_arg11 : FVec F S128 .f32) (main_arg12 : FVec F S128x128 .f32) (main_arg13 : FVec F S128 .f32) (main_arg14 : FVec F S128x32 .f32) (main_arg15 : FVec F S128x32 .f32) (main_arg16 : FVec F S32 .f32) (main_arg17 : FVec F S32x128 .f32) (main_arg18 : FVec F S32 .f32) (main_v13 : IVec S_ 1) (main_v16 : IVec S75x128 1) : IVec S_ 1 :=
  let main_c_5 : IVec S_ 1 := constantI S_ 1 1#1
  let main_v17 : IVec S_ 1 := (fun x v => Host.reduce IntOp.andi x v reducesTo_S75x128_S_d0_1 h_S_) main_v16 main_c_5
  let main_v18 : IVec S_ 1 := andi main_v13 main_v17
  let main_v19 : FVec F S75x128 .f32 := Host.absf main_arg5
  let main_cst_6 : FVec F S_ .f32 := constant S_ .f32 0x7F800000#32
  let main_v20 : FVec F S75x128 .f32 := broadcastInDim S75x128 ![] bcast_S_S75x128 main_cst_6
  let main_v21 : IVec S75x128 1 := cmpf .olt main_v19 main_v20
  let main_c_7 : IVec S_ 1 := constantI S_ 1 1#1
  let main_v22 : IVec S_ 1 := (fun x v => Host.reduce IntOp.andi x v reducesTo_S75x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x75 .f32 := Host.absf main_arg7
  let main_cst_10 : FVec F S_ .f32 := constant S_ .f32 0x7F800000#32
  let main_v30 : FVec F S128x75 .f32 := broadcastInDim S128x75 ![] bcast_S_S128x75 main_cst_10
  let main_v31 : IVec S128x75 1 := cmpf .olt main_v29 main_v30
  let main_c_11 : IVec S_ 1 := constantI S_ 1 1#1
  let main_v32 : IVec S_ 1 := (fun x v => Host.reduce IntOp.andi x v reducesTo_S128x75_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x75 .f32) (main_arg1 : IVec S2x600000 32) (main_arg2 : FVec F S600000 .f32) (main_arg3 : FVec F S600000x2 .f32) (main_arg4 : FVec F S75x128 .f32) (main_arg5 : FVec F S75x128 .f32) (main_arg6 : FVec F S128 .f32) (main_arg7 : FVec F S128x75 .f32) (main_arg8 : FVec F S128 .f32) (main_arg9 : FVec F S128x128 .f32) (main_arg10 : FVec F S128x128 .f32) (main_arg11 : FVec F S128 .f32) (main_arg12 : FVec F S128x128 .f32) (main_arg13 : FVec F S128 .f32) (main_arg14 : FVec F S128x32 .f32) (main_arg15 : FVec F S128x32 .f32) (main_arg16 : FVec F S32 .f32) (main_arg17 : FVec F S32x128 .f32) (main_arg18 : FVec F S32 .f32) : IVec S_ 1 :=
  let main_v0 : FVec F S50000x75 .f32 := Host.absf main_arg0
  let main_cst : FVec F S_ .f32 := constant S_ .f32 0x7F800000#32
  let main_v1 : FVec F S50000x75 .f32 := broadcastInDim S50000x75 ![] bcast_S_S50000x75 main_cst
  let main_v2 : IVec S50000x75 1 := cmpf .olt main_v0 main_v1
  let main_c : IVec S_ 1 := constantI S_ 1 1#1
  let main_v3 : IVec S_ 1 := (fun x v => Host.reduce IntOp.andi x v reducesTo_S50000x75_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S600000x2 .f32 := Host.absf main_arg3
  let main_cst_2 : FVec F S_ .f32 := constant S_ .f32 0x7F800000#32
  let main_v10 : FVec F S600000x2 .f32 := broadcastInDim S600000x2 ![] bcast_S_S600000x2 main_cst_2
  let main_v11 : IVec S600000x2 1 := cmpf .olt main_v9 main_v10
  let main_c_3 : IVec S_ 1 := constantI S_ 1 1#1
  let main_v12 : IVec S_ 1 := (fun x v => Host.reduce IntOp.andi x v reducesTo_S600000x2_S_d0_1 h_S_) main_v11 main_c_3
  let main_v13 : IVec S_ 1 := andi main_v8 main_v12
  let main_v14 : FVec F S75x128 .f32 := Host.absf main_arg4
  let main_cst_4 : FVec F S_ .f32 := constant S_ .f32 0x7F800000#32
  let main_v15 : FVec F S75x128 .f32 := broadcastInDim S75x128 ![] bcast_S_S75x128 main_cst_4
  let main_v16 : IVec S75x128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x75 : Shape := ⟨2, ![50000, 75]⟩
abbrev S2x600000 : Shape := ⟨2, ![2, 600000]⟩
abbrev S600000 : Shape := ⟨1, ![600000]⟩
abbrev S600000x2 : Shape := ⟨2, ![600000, 2]⟩
abbrev S75x128 : Shape := ⟨2, ![75, 128]⟩
abbrev S128 : Shape := ⟨1, ![128]⟩
abbrev S128x75 : Shape := ⟨2, ![128, 75]⟩
abbrev S128x128 : Shape := ⟨2, ![128, 128]⟩
abbrev S128x32 : Shape := ⟨2, ![128, 32]⟩
abbrev S32 : Shape := ⟨1, ![32]⟩
abbrev S32x128 : Shape := ⟨2, ![32, 128]⟩
abbrev S1x600000 : Shape := ⟨2, ![1, 600000]⟩
abbrev S600000x1 : Shape := ⟨2, ![600000, 1]⟩
abbrev S_ : Shape := ⟨0, ![]⟩
abbrev S600000x75 : Shape := ⟨2, ![600000, 75]⟩
abbrev S50000x128 : Shape := ⟨2, ![50000, 128]⟩
abbrev S2000x75 : Shape := ⟨2, ![2000, 75]⟩
abbrev S2000x128 : Shape := ⟨2, ![2000, 128]⟩
abbrev S1x128 : Shape := ⟨2, ![1, 128]⟩
abbrev S600000x128 : Shape := ⟨2, ![600000, 128]⟩
abbrev S50000x32 : Shape := ⟨2, ![50000, 32]⟩
abbrev S2000x32 : Shape := ⟨2, ![2000, 32]⟩
abbrev S1x32 : Shape := ⟨2, ![1, 32]⟩

abbrev nBuf : Space → Nat
  | .hbm => 107
  | .vmem => 36
  | .smem => 0
  | _ => 0

abbrev bufTy : (tb : Table) → Fin (tcTables nBuf tb) → BufTy
  | .hbm, ⟨0, _⟩ => ⟨S50000x75, .f32⟩
  | .hbm, ⟨1, _⟩ => ⟨S2x600000, .i32⟩
  | .hbm, ⟨2, _⟩ => ⟨S600000, .f32⟩
  | .hbm, ⟨3, _⟩ => ⟨S600000x2, .f32⟩
  | .hbm, ⟨4, _⟩ => ⟨S75x128, .f32⟩
  | .hbm, ⟨5, _⟩ => ⟨S75x128, .f32⟩
  | .hbm, ⟨6, _⟩ => ⟨S128, .f32⟩
  | .hbm, ⟨7, _⟩ => ⟨S128x75, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x32, .f32⟩
  | .hbm, ⟨15, _⟩ => ⟨S128x32, .f32⟩
  | .hbm, ⟨16, _⟩ => ⟨S32, .f32⟩
  | .hbm, ⟨17, _⟩ => ⟨S32x128, .f32⟩
  | .hbm, ⟨18, _⟩ => ⟨S32, .f32⟩
  | .hbm, ⟨19, _⟩ => ⟨S1x600000, .i32⟩
  | .hbm, ⟨20, _⟩ => ⟨S600000, .i32⟩
  | .hbm, ⟨21, _⟩ => ⟨S1x600000, .i32⟩
  | .hbm, ⟨22, _⟩ => ⟨S600000, .i32⟩
  | .hbm, ⟨23, _⟩ => ⟨S600000x1, .f32⟩
  | .hbm, ⟨24, _⟩ => ⟨S600000, .f32⟩
  | .hbm, ⟨25, _⟩ => ⟨S600000, .f32⟩
  | .hbm, ⟨26, _⟩ => ⟨S600000x1, .f32⟩
  | .hbm, ⟨27, _⟩ => ⟨S600000, .f32⟩
  | .hbm, ⟨28, _⟩ => ⟨S600000, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x75, .f32⟩
  | .hbm, ⟨38, _⟩ => ⟨S600000x1, .f32⟩
  | .hbm, ⟨39, _⟩ => ⟨S600000x75, .f32⟩
  | .hbm, ⟨40, _⟩ => ⟨S600000x75, .f32⟩
  | .hbm, ⟨41, _⟩ => ⟨S_, .f32⟩
  | .hbm, ⟨42, _⟩ => ⟨S50000x75, .f32⟩
  | .hbm, ⟨43, _⟩ => ⟨S600000x1, .i32⟩
  | .hbm, ⟨44, _⟩ => ⟨S50000x75, .f32⟩
  | .hbm, ⟨45, _⟩ => ⟨S600000x1, .f32⟩
  | .hbm, ⟨46, _⟩ => ⟨S600000x75, .f32⟩
  | .hbm, ⟨47, _⟩ => ⟨S600000x75, .f32⟩
  | .hbm, ⟨48, _⟩ => ⟨S_, .f32⟩
  | .hbm, ⟨49, _⟩ => ⟨S50000x75, .f32⟩
  | .hbm, ⟨50, _⟩ => ⟨S600000x1, .i32⟩
  | .hbm, ⟨51, _⟩ => ⟨S50000x75, .f32⟩
  | .hbm, ⟨52, _⟩ => ⟨S75x128, .f32⟩
  | .hbm, ⟨53, _⟩ => ⟨S128, .f32⟩
  | .hbm, ⟨54, _⟩ => ⟨S50000x128, .f32⟩
  | .hbm, ⟨55, _⟩ => ⟨S_, .i32⟩
  | .hbm, ⟨56, _⟩ => ⟨S600000, .i32⟩
  | .hbm, ⟨57, _⟩ => ⟨S600000, .i1⟩
  | .hbm, ⟨58, _⟩ => ⟨S_, .i32⟩
  | .hbm, ⟨59, _⟩ => ⟨S600000, .i32⟩
  | .hbm, ⟨60, _⟩ => ⟨S600000, .i32⟩
  | .hbm, ⟨61, _⟩ => ⟨S600000, .i32⟩
  | .hbm, ⟨62, _⟩ => ⟨S600000x1, .i32⟩
  | .hbm, ⟨63, _⟩ => ⟨S600000x128, .f32⟩
  | .hbm, ⟨64, _⟩ => ⟨S600000x1, .f32⟩
  | .hbm, ⟨65, _⟩ => ⟨S600000x128, .f32⟩
  | .hbm, ⟨66, _⟩ => ⟨S600000x128, .f32⟩
  | .hbm, ⟨67, _⟩ => ⟨S_, .f32⟩
  | .hbm, ⟨68, _⟩ => ⟨S50000x128, .f32⟩
  | .hbm, ⟨69, _⟩ => ⟨S600000x1, .i32⟩
  | .hbm, ⟨70, _⟩ => ⟨S50000x128, .f32⟩
  | .hbm, ⟨71, _⟩ => ⟨S600000x1, .f32⟩
  | .hbm, ⟨72, _⟩ => ⟨S600000x128, .f32⟩
  | .hbm, ⟨73, _⟩ => ⟨S600000x128, .f32⟩
  | .hbm, ⟨74, _⟩ => ⟨S_, .f32⟩
  | .hbm, ⟨75, _⟩ => ⟨S50000x128, .f32⟩
  | .hbm, ⟨76, _⟩ => ⟨S600000x1, .i32⟩
  | .hbm, ⟨77, _⟩ => ⟨S50000x128, .f32⟩
  | .hbm, ⟨78, _⟩ => ⟨S128x128, .f32⟩
  | .hbm, ⟨79, _⟩ => ⟨S128, .f32⟩
  | .hbm, ⟨80, _⟩ => ⟨S50000x128, .f32⟩
  | .hbm, ⟨81, _⟩ => ⟨S_, .i32⟩
  | .hbm, ⟨82, _⟩ => ⟨S600000, .i32⟩
  | .hbm, ⟨83, _⟩ => ⟨S600000, .i1⟩
  | .hbm, ⟨84, _⟩ => ⟨S_, .i32⟩
  | .hbm, ⟨85, _⟩ => ⟨S600000, .i32⟩
  | .hbm, ⟨86, _⟩ => ⟨S600000, .i32⟩
  | .hbm, ⟨87, _⟩ => ⟨S600000, .i32⟩
  | .hbm, ⟨88, _⟩ => ⟨S600000x1, .i32⟩
  | .hbm, ⟨89, _⟩ => ⟨S600000x128, .f32⟩
  | .hbm, ⟨90, _⟩ => ⟨S600000x1, .f32⟩
  | .hbm, ⟨91, _⟩ => ⟨S600000x128, .f32⟩
  | .hbm, ⟨92, _⟩ => ⟨S600000x128, .f32⟩
  | .hbm, ⟨93, _⟩ => ⟨S_, .f32⟩
  | .hbm, ⟨94, _⟩ => ⟨S50000x128, .f32⟩
  | .hbm, ⟨95, _⟩ => ⟨S600000x1, .i32⟩
  | .hbm, ⟨96, _⟩ => ⟨S50000x128, .f32⟩
  | .hbm, ⟨97, _⟩ => ⟨S600000x1, .f32⟩
  | .hbm, ⟨98, _⟩ => ⟨S600000x128, .f32⟩
  | .hbm, ⟨99, _⟩ => ⟨S600000x128, .f32⟩
  | .hbm, ⟨100, _⟩ => ⟨S_, .f32⟩
  | .hbm, ⟨101, _⟩ => ⟨S50000x128, .f32⟩
  | .hbm, ⟨102, _⟩ => ⟨S600000x1, .i32⟩
  | .hbm, ⟨103, _⟩ => ⟨S50000x128, .f32⟩
  | .hbm, ⟨104, _⟩ => ⟨S128x32, .f32⟩
  | .hbm, ⟨105, _⟩ => ⟨S32, .f32⟩
  | .hbm, ⟨106, _⟩ => ⟨S50000x32, .f32⟩
  | .local _ .vmem, ⟨0, _⟩ => ⟨S2000x75, .f32⟩
  | .local _ .vmem, ⟨1, _⟩ => ⟨S2000x75, .f32⟩
  | .local _ .vmem, ⟨2, _⟩ => ⟨S2000x75, .f32⟩
  | .local _ .vmem, ⟨3, _⟩ => ⟨S2000x75, .f32⟩
  | .local _ .vmem, ⟨4, _⟩ => ⟨S2000x75, .f32⟩
  | .local _ .vmem, ⟨5, _⟩ => ⟨S2000x75, .f32⟩
  | .local _ .vmem, ⟨6, _⟩ => ⟨S75x128, .f32⟩
  | .local _ .vmem, ⟨7, _⟩ => ⟨S75x128, .f32⟩
  | .local _ .vmem, ⟨8, _⟩ => ⟨S75x128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x32, .f32⟩
  | .local _ .vmem, ⟨31, _⟩ => ⟨S128x32, .f32⟩
  | .local _ .vmem, ⟨32, _⟩ => ⟨S128x32, .f32⟩
  | .local _ .vmem, ⟨33, _⟩ => ⟨S32, .f32⟩
  | .local _ .vmem, ⟨34, _⟩ => ⟨S2000x32, .f32⟩
  | .local _ .vmem, ⟨35, _⟩ => ⟨S2000x32, .f32⟩
  | _, _ => ⟨S50000x75, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c : Ref sig .tc := ⟨.hbm, 29, rfl⟩
abbrev main_v10 : Ref sig .tc := ⟨.hbm, 30, rfl⟩
abbrev main_v11 : Ref sig .tc := ⟨.hbm, 31, rfl⟩
abbrev main_c_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_1 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_2 : Ref sig .tc := ⟨.hbm, 55, rfl⟩
abbrev main_v32 : Ref sig .tc := ⟨.hbm, 56, rfl⟩
abbrev main_v33 : Ref sig .tc := ⟨.hbm, 57, rfl⟩
abbrev main_c_3 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_4 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_5 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_6 : Ref sig .tc := ⟨.hbm, 81, rfl⟩
abbrev main_v54 : Ref sig .tc := ⟨.hbm, 82, rfl⟩
abbrev main_v55 : Ref sig .tc := ⟨.hbm, 83, rfl⟩
abbrev main_c_7 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_8 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_9 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x75 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x75 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x75 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S75x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S75x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S75x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x32 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S600000x2_S600000x1_0_0 : S600000x2.Slices ![0, 0] S600000x1
  shapeCasts_S600000x1_S600000 : S600000x1.ShapeCasts S600000
  slices_S600000x2_S600000x1_0_1 : S600000x2.Slices ![0, 1] S600000x1
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x75_0_1 : S600000x1.BroadcastsInDim S600000x75 (![0, 1] : Fin 2 → Fin S600000x75.rank)
  bcast_S_S50000x75 : S_.BroadcastsInDim S50000x75 (![] : Fin 0 → Fin S50000x75.rank)
  transposes_S128x75_S75x128_1_0 : S128x75.Transposes [1, 0] S75x128
  inb_S2000x75_S2000x75_0_0 : ∀ a, (![0, 0] : Fin 2 → Nat) a + S2000x75.size a ≤ S2000x75.size a
  h_S2000x75 : 0 < S2000x75.numel
  shapeCasts_S2000x75_S2000x75 : S2000x75.ShapeCasts S2000x75
  bitsLt_bf16_f32 : FTy.bits .bf16 < FTy.bits .f32
  inb_S75x128_S75x128_0_0 : ∀ a, (![0, 0] : Fin 2 → Nat) a + S75x128.size a ≤ S75x128.size a
  h_S75x128 : 0 < S75x128.numel
  shapeCasts_S75x128_S75x128 : S75x128.ShapeCasts S75x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  transposes_S128x128_S128x128_1_0 : S128x128.Transposes [1, 0] S128x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S32x128_S128x32_1_0 : S32x128.Transposes [1, 0] S128x32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S32_S32_0 : ∀ a, (![0] : Fin 1 → Nat) a + S32.size a ≤ S32.size a
  h_S32 : 0 < S32.numel
  shapeCasts_S32_S32 : S32.ShapeCasts S32
  shapeCasts_S32_S1x32 : S32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  gather_S50000x75_S600000x1_S600000x75_1_0_n_n_0_1_175_wf : GatherDims.WF S50000x75 S600000x1 S600000x75 [1] [0] [] [0] [] 1 ![1, 75]
  scatter_S50000x75_S600000x1_S600000x75_1_0_0_1_wf : ScatterDims.WF S50000x75 S600000x1 S600000x75 [1] [0] [0] 1
  dot_S2000x75_S75x128_S2000x128_1_0_0_1_n_n_wf : DotDims.WF S2000x75 S75x128 S2000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  dot_S2000x128_S128x32_S2000x32_1_0_0_1_n_n_wf : DotDims.WF S2000x128 S128x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x75.size a ≤ S50000x75.size a
  hwx0_0 : ∀ i : grid0.Coords, EltTy.bits .f32 = 32 ∨ (Rect.block (s := S50000x75) S2000x75.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x75.size a ≤ S50000x75.size a
  hwx0_1 : ∀ i : grid0.Coords, EltTy.bits .f32 = 32 ∨ (Rect.block (s := S50000x75) S2000x75.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x75.size a ≤ S50000x75.size a
  hwx0_2 : ∀ i : grid0.Coords, EltTy.bits .f32 = 32 ∨ (Rect.block (s := S50000x75) S2000x75.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S75x128.size a ≤ S75x128.size a
  hwx0_3 : ∀ i : grid0.Coords, EltTy.bits .f32 = 32 ∨ (Rect.block (s := S75x128) S75x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S75x128.size a ≤ S75x128.size a
  hwx0_4 : ∀ i : grid0.Coords, EltTy.bits .f32 = 32 ∨ (Rect.block (s := S75x128) S75x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S75x128.size a ≤ S75x128.size a
  hwx0_5 : ∀ i : grid0.Coords, EltTy.bits .f32 = 32 ∨ (Rect.block (s := S75x128) S75x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x32.size a ≤ S128x32.size a
  hwx2_3 : ∀ i : grid2.Coords, EltTy.bits .f32 = 32 ∨ (Rect.block (s := S128x32) S128x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x32.size a ≤ S128x32.size a
  hwx2_4 : ∀ i : grid2.Coords, EltTy.bits .f32 = 32 ∨ (Rect.block (s := S128x32) S128x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x32.size a ≤ S128x32.size a
  hwx2_5 : ∀ i : grid2.Coords, EltTy.bits .f32 = 32 ∨ (Rect.block (s := S128x32) S128x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32.size a ≤ S32.size a
  hwx2_6 : ∀ i : grid2.Coords, EltTy.bits .f32 = 32 ∨ (Rect.block (s := S32) S32.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x32.size a ≤ S50000x32.size a
  hwx2_7 : ∀ i : grid2.Coords, EltTy.bits .f32 = 32 ∨ (Rect.block (s := S50000x32) S2000x32.size (cc2_transform_7 i) (hinb2_7 i)).WholeWords (EltTy.packing .f32)

variable [Facts₀]

def gather_S50000x75_S600000x1_S600000x75_1_0_n_n_0_1_175 : GatherDims S50000x75 S600000x1 S600000x75 where
  offsetDims := [1]
  collapsedSliceDims := [0]
  operandBatchingDims := []
  startIndicesBatchingDims := []
  startIndexMap := [0]
  indexVectorDim := 1
  sliceSizes := ![1, 75]
  wf := gather_S50000x75_S600000x1_S600000x75_1_0_n_n_0_1_175_wf
def scatter_S50000x75_S600000x1_S600000x75_1_0_0_1 : ScatterDims S50000x75 S600000x1 S600000x75 where
  updateWindowDims := [1]
  insertedWindowDims := [0]
  scatterDimsToOperandDims := [0]
  indexVectorDim := 1
  wf := scatter_S50000x75_S600000x1_S600000x75_1_0_0_1_wf
def dot_S2000x75_S75x128_S2000x128_1_0_0_1_n_n : DotDims S2000x75 S75x128 S2000x128 where
  lhsContracting := [1]
  rhsContracting := [0]
  lhsNonContracting := [0]
  rhsNonContracting := [1]
  lhsBatch := []
  rhsBatch := []
  wf := dot_S2000x75_S75x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf

abbrev win0_0 : Pipeline.Window sig grid0 :=
  Pipeline.Window.ofSpec (Memref.whole main_v22) S2000x75.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S2000x75.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x75.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S75x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S75x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S75x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v53) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v66) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v72) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S128x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S128x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v73) S128x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v74) S32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v75) S2000x32.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x75 : Shape := ⟨2, ![50000, 75]⟩
abbrev S2x600000 : Shape := ⟨2, ![2, 600000]⟩
abbrev S600000 : Shape := ⟨1, ![600000]⟩
abbrev S600000x2 : Shape := ⟨2, ![600000, 2]⟩
abbrev S75x128 : Shape := ⟨2, ![75, 128]⟩
abbrev S128 : Shape := ⟨1, ![128]⟩
abbrev S128x75 : Shape := ⟨2, ![128, 75]⟩
abbrev S128x128 : Shape := ⟨2, ![128, 128]⟩
abbrev S128x32 : Shape := ⟨2, ![128, 32]⟩
abbrev S32 : Shape := ⟨1, ![32]⟩
abbrev S32x128 : Shape := ⟨2, ![32, 128]⟩
abbrev S1x600000 : Shape := ⟨2, ![1, 600000]⟩
abbrev S600000x1 : Shape := ⟨2, ![600000, 1]⟩
abbrev S_ : Shape := ⟨0, ![]⟩
abbrev S600000x75 : Shape := ⟨2, ![600000, 75]⟩
abbrev S50000x128 : Shape := ⟨2, ![50000, 128]⟩
abbrev S1x128 : Shape := ⟨2, ![1, 128]⟩
abbrev S600000x128 : Shape := ⟨2, ![600000, 128]⟩
abbrev S50000x32 : Shape := ⟨2, ![50000, 32]⟩
abbrev S1x32 : Shape := ⟨2, ![1, 32]⟩

abbrev nBuf : Space → Nat
  | .hbm => 143
  | .vmem => 0
  | .smem => 0
  | _ => 0

abbrev hbmTy0_0 (i : Nat) : BufTy := match i % 128 with
  | 0 => ⟨S50000x75, .f32⟩
  | 1 => ⟨S2x600000, .i32⟩
  | 2 => ⟨S600000, .f32⟩
  | 3 => ⟨S600000x2, .f32⟩
  | 4 => ⟨S75x128, .f32⟩
  | 5 => ⟨S75x128, .f32⟩
  | 6 => ⟨S128, .f32⟩
  | 7 => ⟨S128x75, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128, .f32⟩
  | 14 => ⟨S128x32, .f32⟩
  | 15 => ⟨S128x32, .f32⟩
  | 16 => ⟨S32, .f32⟩
  | 17 => ⟨S32x128, .f32⟩
  | 18 => ⟨S32, .f32⟩
  | 19 => ⟨S1x600000, .i32⟩
  | 20 => ⟨S600000, .i32⟩
  | 21 => ⟨S1x600000, .i32⟩
  | 22 => ⟨S600000, .i32⟩
  | 23 => ⟨S600000x1, .f32⟩
  | 24 => ⟨S600000, .f32⟩
  | 25 => ⟨S600000, .f32⟩
  | 26 => ⟨S600000x1, .f32⟩
  | 27 => ⟨S600000, .f32⟩
  | 28 => ⟨S600000, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000x75, .f32⟩
  | 38 => ⟨S600000x1, .f32⟩
  | 39 => ⟨S600000x75, .f32⟩
  | 40 => ⟨S600000x75, .f32⟩
  | 41 => ⟨S_, .f32⟩
  | 42 => ⟨S50000x75, .f32⟩
  | 43 => ⟨S600000x1, .i32⟩
  | 44 => ⟨S50000x75, .f32⟩
  | 45 => ⟨S600000x1, .f32⟩
  | 46 => ⟨S600000x75, .f32⟩
  | 47 => ⟨S600000x75, .f32⟩
  | 48 => ⟨S_, .f32⟩
  | 49 => ⟨S50000x75, .f32⟩
  | 50 => ⟨S600000x1, .i32⟩
  | 51 => ⟨S50000x75, .f32⟩
  | 52 => ⟨S50000x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S75x128, .f32⟩
  | 59 => ⟨S50000x128, .f32⟩
  | 60 => ⟨S50000x128, .f32⟩
  | 61 => ⟨S1x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S_, .i32⟩
  | 68 => ⟨S600000, .i32⟩
  | 69 => ⟨S600000, .i1⟩
  | 70 => ⟨S_, .i32⟩
  | 71 => ⟨S600000, .i32⟩
  | 72 => ⟨S600000, .i32⟩
  | 73 => ⟨S600000, .i32⟩
  | 74 => ⟨S600000x1, .i32⟩
  | 75 => ⟨S600000x128, .f32⟩
  | 76 => ⟨S600000x1, .f32⟩
  | 77 => ⟨S600000x128, .f32⟩
  | 78 => ⟨S600000x128, .f32⟩
  | 79 => ⟨S_, .f32⟩
  | 80 => ⟨S50000x128, .f32⟩
  | 81 => ⟨S600000x1, .i32⟩
  | 82 => ⟨S50000x128, .f32⟩
  | 83 => ⟨S600000x1, .f32⟩
  | 84 => ⟨S600000x128, .f32⟩
  | 85 => ⟨S600000x128, .f32⟩
  | 86 => ⟨S_, .f32⟩
  | 87 => ⟨S50000x128, .f32⟩
  | 88 => ⟨S600000x1, .i32⟩
  | 89 => ⟨S50000x128, .f32⟩
  | 90 => ⟨S50000x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S128x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S_, .i32⟩
  | 106 => ⟨S600000, .i32⟩
  | 107 => ⟨S600000, .i1⟩
  | 108 => ⟨S_, .i32⟩
  | 109 => ⟨S600000, .i32⟩
  | 110 => ⟨S600000, .i32⟩
  | 111 => ⟨S600000, .i32⟩
  | 112 => ⟨S600000x1, .i32⟩
  | 113 => ⟨S600000x128, .f32⟩
  | 114 => ⟨S600000x1, .f32⟩
  | 115 => ⟨S600000x128, .f32⟩
  | 116 => ⟨S600000x128, .f32⟩
  | 117 => ⟨S_, .f32⟩
  | 118 => ⟨S50000x128, .f32⟩
  | 119 => ⟨S600000x1, .i32⟩
  | 120 => ⟨S50000x128, .f32⟩
  | 121 => ⟨S600000x1, .f32⟩
  | 122 => ⟨S600000x128, .f32⟩
  | 123 => ⟨S600000x128, .f32⟩
  | 124 => ⟨S_, .f32⟩
  | 125 => ⟨S50000x128, .f32⟩
  | 126 => ⟨S600000x1, .i32⟩
  | 127 => ⟨S50000x128, .f32⟩
  | _ => ⟨S50000x75, .f32⟩

abbrev hbmTy0_1 (i : Nat) : BufTy := match i % 128 with
  | 0 => ⟨S50000x32, .f32⟩
  | 1 => ⟨S50000x32, .f32⟩
  | 2 => ⟨S50000x32, .f32⟩
  | 3 => ⟨S1x32, .f32⟩
  | 4 => ⟨S50000x32, .f32⟩
  | 5 => ⟨S50000x32, .f32⟩
  | 6 => ⟨S128x32, .f32⟩
  | 7 => ⟨S50000x32, .f32⟩
  | 8 => ⟨S50000x32, .f32⟩
  | 9 => ⟨S1x32, .f32⟩
  | 10 => ⟨S50000x32, .f32⟩
  | 11 => ⟨S50000x32, .f32⟩
  | 12 => ⟨S_, .f32⟩
  | 13 => ⟨S50000x32, .f32⟩
  | 14 => ⟨S50000x32, .f32⟩
  | _ => ⟨S50000x75, .f32⟩

abbrev hbmTy (i : Nat) : BufTy := match i / 128 with
  | 0 => hbmTy0_0 i
  | 1 => hbmTy0_1 i
  | _ => ⟨S50000x75, .f32⟩

abbrev bufTy : (tb : Table) → Fin (tcTables nBuf tb) → BufTy
  | .hbm, ⟨i, _⟩ => hbmTy i
  | _, _ => ⟨S50000x75, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c : Ref sig .tc := ⟨.hbm, 29, rfl⟩
abbrev main_v10 : Ref sig .tc := ⟨.hbm, 30, rfl⟩
abbrev main_v11 : Ref sig .tc := ⟨.hbm, 31, rfl⟩
abbrev main_c_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_1 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call0_cst : Ref sig .tc := ⟨.hbm, 64, rfl⟩
abbrev main_call0_v0 : Ref sig .tc := ⟨.hbm, 65, rfl⟩
abbrev main_v41 : Ref sig .tc := ⟨.hbm, 66, rfl⟩
abbrev main_c_2 : Ref sig .tc := ⟨.hbm, 67, rfl⟩
abbrev main_v42 : Ref sig .tc := ⟨.hbm, 68, rfl⟩
abbrev main_v43 : Ref sig .tc := ⟨.hbm, 69, rfl⟩
abbrev main_c_3 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_4 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_5 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_call1_cst : Ref sig .tc := ⟨.hbm, 102, rfl⟩
abbrev main_call1_v0 : Ref sig .tc := ⟨.hbm, 103, rfl⟩
abbrev main_v73 : Ref sig .tc := ⟨.hbm, 104, rfl⟩
abbrev main_c_6 : Ref sig .tc := ⟨.hbm, 105, rfl⟩
abbrev main_v74 : Ref sig .tc := ⟨.hbm, 106, rfl⟩
abbrev main_v75 : Ref sig .tc := ⟨.hbm, 107, rfl⟩
abbrev main_c_7 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_8 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_9 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_call2_cst : Ref sig .tc := ⟨.hbm, 140, rfl⟩
abbrev main_call2_v0 : Ref sig .tc := ⟨.hbm, 141, rfl⟩
abbrev main_v105 : Ref sig .tc := ⟨.hbm, 142, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S600000x2_S600000x1_0_0 : S600000x2.Slices ![0, 0] S600000x1
  shapeCasts_S600000x1_S600000 : S600000x1.ShapeCasts S600000
  slices_S600000x2_S600000x1_0_1 : S600000x2.Slices ![0, 1] S600000x1
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x75_0_1 : S600000x1.BroadcastsInDim S600000x75 (![0, 1] : Fin 2 → Fin S600000x75.rank)
  bcast_S_S50000x75 : S_.BroadcastsInDim S50000x75 (![] : Fin 0 → Fin S50000x75.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S128x75_S75x128_1_0 : S128x75.Transposes [1, 0] S75x128
  bcast_S_S50000x128 : S_.BroadcastsInDim S50000x128 (![] : Fin 0 → Fin S50000x128.rank)
  bcast_S600000x1_S600000x128_0_1 : S600000x1.BroadcastsInDim S600000x128 (![0, 1] : Fin 2 → Fin S600000x128.rank)
  transposes_S128x128_S128x128_1_0 : S128x128.Transposes [1, 0] S128x128
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  transposes_S32x128_S128x32_1_0 : S32x128.Transposes [1, 0] S128x32
  bcast_S_S50000x32 : S_.BroadcastsInDim S50000x32 (![] : Fin 0 → Fin S50000x32.rank)
  gather_S50000x75_S600000x1_S600000x75_1_0_n_n_0_1_175_wf : GatherDims.WF S50000x75 S600000x1 S600000x75 [1] [0] [] [0] [] 1 ![1, 75]
  scatter_S50000x75_S600000x1_S600000x75_1_0_0_1_wf : ScatterDims.WF S50000x75 S600000x1 S600000x75 [1] [0] [0] 1
  dot_S50000x75_S75x128_S50000x128_1_0_0_1_n_n_wf : DotDims.WF S50000x75 S75x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x32_S50000x32_1_0_0_1_n_n_wf : DotDims.WF S50000x128 S128x32 S50000x32 [1] [0] [0] [1] [] []

variable [Facts₀]

def gather_S50000x75_S600000x1_S600000x75_1_0_n_n_0_1_175 : GatherDims S50000x75 S600000x1 S600000x75 where
  offsetDims := [1]
  collapsedSliceDims := [0]
  operandBatchingDims := []
  startIndicesBatchingDims := []
  startIndexMap := [0]
  indexVectorDim := 1
  sliceSizes := ![1, 75]
  wf := gather_S50000x75_S600000x1_S600000x75_1_0_n_n_0_1_175_wf
def scatter_S50000x75_S600000x1_S600000x75_1_0_0_1 : ScatterDims S50000x75 S600000x1 S600000x75 where
  updateWindowDims := [1]
  insertedWindowDims := [0]
  scatterDimsToOperandDims := [0]
  indexVectorDim := 1
  wf := scatter_S50000x75_S600000x1_S600000x75_1_0_0_1_wf
def dot_S50000x75_S75x128_S50000x128_1_0_0_1_n_n : DotDims S50000x75 S75x128 S50000x128 where
  lhsContracting := [1]
  rhsContracting := [0]
  lhsNonContracting := [0]
  rhsNonContracting := [1]
  lhsBatch := []
  rhsBatch := []
  wf := dot_S50000x75_S75x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf

class Facts : Prop extends Facts₀ where

variable [Facts]
-- ==== Proof.KernelRun.lean ====
/-
  The idealized kernel's run with its result named.

  @main is six segments: a stretch of host operations, a pipelined region, and so on three times. The buffer contents at
  each segment boundary are a fold from the launch memory (a host stretch applies its operations; a region replaces its
  arrays by what its write-backs leave and keeps every other buffer). Every weakly fair execution terminates with every
  unscoped buffer at the last boundary's contents; read at the result buffer this names the result, and read at an
  argument it gives the argument back as launched.
-/
import proofs.«180355_j26706106646645_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the
    last region leaves (the fold's last boundary read at the result) and every argument array as launched. -/
theorem run : θ_run defs (onTc (τ := τ) (main (F := F))) ⟨m, fun _ => 0, ρ⟩ (fun r => ∀ c : Dev nD,
      r.2.mem ((c.tc : Thread nD τ).loc main_v75) = W6 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v75 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c)⟩)

end Cert.KernelIdeal.ValueRun

end
-- ==== Proof.DenseStep.lean ====
/-
  The dense step of one message-passing layer, as mathematics, at any extents.

  For node features `x : [N, K]`, two aggregated feature arrays `ar, ai : [N, K]` (the real and imaginary parts of
  the complex edge coefficients' weighted neighbour sums), filters `wr, wi : [K, M]`, a residual weight `lwt : [K, M]`
  and biases of length `M`, a layer's output at node `p` and channel `q` is

      max (ar·wr − ai·wi + x·lwt + bias) 0          (a rectified real part of a complex projection plus a residual)

  where `a·w` at `(p, q)` is the contraction `∑ k, a (p, k) * w (k, q)` over the extended reals. The two programs
  differ only in how the two biases enter: one adds their sum `cb + lb` last, the other adds `cb` before the residual
  product and `lb` after it. Addition of extended reals is commutative and associative (it is a commutative monoid, with
  `⊤ + ⊥ = ⊥`), so the two orders agree at every input, finite or not: no distributivity and no cancellation is used.
-/
import Idealize.ShloMosaic.PureOps.Ideal
import Idealize.ShloMosaic.Lib.ValueIdx

noncomputable section

namespace Cert.DenseStep

open Idealize.ShloMosaic Idealize.ShloMosaic.ValueIdx

variable {N K M : Nat}

/-- The contraction of `a : [N, K]` with `w : [K, M]` at row `p` and column `q`. -/
def proj (a : FVec Ideal ⟨2, ![N, K]⟩ .f32) (w : FVec Ideal ⟨2, ![K, M]⟩ .f32) (p : Fin N) (q : Fin M) : EReal :=
  ∑ k : Fin K, a (ix2 p k) * w (ix2 k q)

/-- One output element with the two biases already summed into `b`: the three projections combined, the bias added
    last, then the rectification. -/
def elt (ar ai x : FVec Ideal ⟨2, ![N, K]⟩ .f32) (wr wi lwt : FVec Ideal ⟨2, ![K, M]⟩ .f32)
    (b : FVec Ideal ⟨1, ![M]⟩ .f32) (p : Fin N) (q : Fin M) : EReal :=
  max (((proj ar wr p q - proj ai wi p q) + proj x lwt p q) + b (ix1 q)) 0

/-- The same element with the biases entering separately: `cb` right after the complex projection, `lb` after the
    residual product. -/
def eltSplit (ar ai x : FVec Ideal ⟨2, ![N, K]⟩ .f32) (wr wi lwt : FVec Ideal ⟨2, ![K, M]⟩ .f32)
    (cb lb : FVec Ideal ⟨1, ![M]⟩ .f32) (p : Fin N) (q : Fin M) : EReal :=
  max ((((proj ar wr p q - proj ai wi p q) + cb (ix1 q)) + proj x lwt p q) + lb (ix1 q)) 0

/-- Rearranging a sum of four extended reals: `((u + c) + v) + l = (u + v) + (c + l)`. -/
theorem add_rearrange (u v c l : EReal) : ((u + c) + v) + l = (u + v) + (c + l) := by
  rw [add_assoc u c v, add_comm c v, ← add_assoc u v c, add_assoc (u + v) c l]

/-- The two orders of adding the biases give the same element, at every extended-real input. -/
theorem eltSplit_eq (ar ai x : FVec Ideal ⟨2, ![N, K]⟩ .f32) (wr wi lwt : FVec Ideal ⟨2, ![K, M]⟩ .f32)
    (cb lb : FVec Ideal ⟨1, ![M]⟩ .f32) (p : Fin N) (q : Fin M) :
    eltSplit ar ai x wr wi lwt cb lb p q = elt ar ai x wr wi lwt (addf cb lb) p q := by
  unfold eltSplit elt
  rw [add_rearrange]
  rfl

/-- The whole output array `[N, M]` of the dense step, element by element. -/
def dense (ar ai x : FVec Ideal ⟨2, ![N, K]⟩ .f32) (wr wi lwt : FVec Ideal ⟨2, ![K, M]⟩ .f32)
    (b : FVec Ideal ⟨1, ![M]⟩ .f32) : FVec Ideal ⟨2, ![N, M]⟩ .f32 :=
  fun i => elt ar ai x wr wi lwt b (i 0) (i 1)

theorem dense_apply (ar ai x : FVec Ideal ⟨2, ![N, K]⟩ .f32) (wr wi lwt : FVec Ideal ⟨2, ![K, M]⟩ .f32)
    (b : FVec Ideal ⟨1, ![M]⟩ .f32) (p : Fin N) (q : Fin M) :
    dense ar ai x wr wi lwt b (ix2 p q) = elt ar ai x wr wi lwt b p q := rfl

end Cert.DenseStep

end
-- ==== Proof.Layers.lean ====
/-
  The network both programs compute, as ONE function of the nineteen argument arrays.

  A layer of the encoder takes node features `x : [50000, C]` and, for every edge `e` with source `src e`, destination
  `dst e` and complex coefficient `cr e + i · ci e`, adds `x (src e) · cr e` (resp. `· ci e`) into row `dst e` of a zero
  array: the two aggregates. A negative source index wraps by the number of nodes before the row is fetched. The dense
  step (`Cert.DenseStep.dense`) then combines the two aggregates and `x` with the layer's filters, the transposed
  residual weight and the sum of the two biases.

  The aggregate is spelt with the host operations exactly as both programs print them (a row gather, a product with the
  broadcast coefficient, a row scatter-add into zeros) and is never opened: both programs apply the same operations to
  the same values, so it is carried as an opaque function of `(x, src, dst, coefficient)`.
-/
import proofs.«180355_j26706106646645_1_alg».proof.KernelIdeal
import proofs.«180355_j26706106646645_1_alg».proof.Proof.Gen.KernelIdeal
import proofs.«180355_j26706106646645_1_alg».proof.Proof.DenseStep

noncomputable section

namespace Cert.Gnn

open Idealize.ShloMosaic Cert.KernelIdeal Cert.KernelIdeal.Gen

/-- A float array of shape `s` at the ideal values. -/
abbrev Arr (s : Shape) : Type := FVec Ideal s .f32
/-- A 32-bit integer array of shape `s`. -/
abbrev IArr (s : Shape) : Type := IVec s 32

/-- Row 0 of the edge list: the source node of every edge. -/
def srcOf (e : IArr S2x600000) : IArr S600000 :=
  shapeCast S600000 (extractStridedSlice S1x600000 ![0, 0] e slices_S2x600000_S1x600000_0_0) shapeCasts_S1x600000_S600000

/-- Row 1 of the edge list: the destination node of every edge. -/
def dstOf (e : IArr S2x600000) : IArr S600000 :=
  shapeCast S600000 (extractStridedSlice S1x600000 ![1, 0] e slices_S2x600000_S1x600000_1_0) shapeCasts_S1x600000_S600000

/-- The real part of every edge's coefficient: the edge weight times column 0 of the similarity array. -/
def crOf (w : Arr S600000) (s : Arr S600000x2) : Arr S600000 :=
  mulf w (shapeCast S600000 (extractStridedSlice S600000x1 ![0, 0] s slices_S600000x2_S600000x1_0_0) shapeCasts_S600000x1_S600000)

/-- The imaginary part: the edge weight times column 1. -/
def ciOf (w : Arr S600000) (s : Arr S600000x2) : Arr S600000 :=
  mulf w (shapeCast S600000 (extractStridedSlice S600000x1 ![0, 1] s slices_S600000x2_S600000x1_0_1) shapeCasts_S600000x1_S600000)

/-- The source indices as a column of gather start indices, a negative one wrapped by the number of nodes. -/
def startsOf (src : IArr S600000) : IArr S600000x1 :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 50000#32))) src)

/-- The aggregate of 75-channel features: row `dst e` collects `x (src e) · coef e` over all edges `e`. -/
def agg75 (x : Arr S50000x75) (src dst : IArr S600000) (coef : Arr S600000) : Arr S50000x75 :=
  Host.scatterAdd scatter_S50000x75_S600000x1_S600000x75_1_0_0_1
    (broadcastInDim S50000x75 ![] bcast_S_S50000x75 (constant (F := Ideal) S_ .f32 0x00000000#32))
    (broadcastInDim S600000x1 ![0] bcast_S600000_S600000x1_0 dst)
    (mulf (Host.gather gather_S50000x75_S600000x1_S600000x75_1_0_n_n_0_1_175 x (startsOf src))
      (broadcastInDim S600000x75 ![0, 1] bcast_S600000x1_S600000x75_0_1
        (broadcastInDim S600000x1 ![0] bcast_S600000_S600000x1_0 coef)))

/-- The aggregate of 128-channel features. -/
def agg128 (x : Arr S50000x128) (src dst : IArr S600000) (coef : Arr S600000) : Arr S50000x128 :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (mulf (Host.gather gather_S50000x128_S600000x1_S600000x128_1_0_n_n_0_1_1128 x (startsOf src))
      (broadcastInDim S600000x128 ![0, 1] bcast_S600000x1_S600000x128_0_1
        (broadcastInDim S600000x1 ![0] bcast_S600000_S600000x1_0 coef)))

/-- Layer 0: 75 channels in, 128 out. -/
def layer0 (x : Arr S50000x75) (src dst : IArr S600000) (cr ci : Arr S600000)
    (wr wi : Arr S75x128) (cb : Arr S128) (lw : Arr S128x75) (lb : Arr S128) : Arr S50000x128 :=
  Cert.DenseStep.dense (N := 50000) (K := 75) (M := 128) (agg75 x src dst cr) (agg75 x src dst ci) x wr wi
    (transpose S75x128 [1, 0] lw transposes_S128x75_S75x128_1_0) (addf cb lb)

/-- Layer 1: 128 channels in, 128 out. -/
def layer1 (x : Arr S50000x128) (src dst : IArr S600000) (cr ci : Arr S600000)
    (wr wi : Arr S128x128) (cb : Arr S128) (lw : Arr S128x128) (lb : Arr S128) : Arr S50000x128 :=
  Cert.DenseStep.dense (N := 50000) (K := 128) (M := 128) (agg128 x src dst cr) (agg128 x src dst ci) x wr wi
    (transpose S128x128 [1, 0] lw transposes_S128x128_S128x128_1_0) (addf cb lb)

/-- Layer 2: 128 channels in, 32 out. -/
def layer2 (x : Arr S50000x128) (src dst : IArr S600000) (cr ci : Arr S600000)
    (wr wi : Arr S128x32) (cb : Arr S32) (lw : Arr S32x128) (lb : Arr S32) : Arr S50000x32 :=
  Cert.DenseStep.dense (N := 50000) (K := 128) (M := 32) (agg128 x src dst cr) (agg128 x src dst ci) x wr wi
    (transpose S128x32 [1, 0] lw transposes_S32x128_S128x32_1_0) (addf cb lb)

/-- The three layers in sequence, over the edge list's two rows and the two coefficient vectors computed once. -/
def net (x : Arr S50000x75) (e : IArr S2x600000) (w : Arr S600000) (s : Arr S600000x2)
    (wr0 wi0 : Arr S75x128) (cb0 : Arr S128) (lw0 : Arr S128x75) (lb0 : Arr S128)
    (wr1 wi1 : Arr S128x128) (cb1 : Arr S128) (lw1 : Arr S128x128) (lb1 : Arr S128)
    (wr2 wi2 : Arr S128x32) (cb2 : Arr S32) (lw2 : Arr S32x128) (lb2 : Arr S32) : Arr S50000x32 :=
  layer2 (layer1 (layer0 x (srcOf e) (dstOf e) (crOf w s) (ciOf w s) wr0 wi0 cb0 lw0 lb0)
      (srcOf e) (dstOf e) (crOf w s) (ciOf w s) wr1 wi1 cb1 lw1 lb1)
    (srcOf e) (dstOf e) (crOf w s) (ciOf w s) wr2 wi2 cb2 lw2 lb2

end Cert.Gnn

end
-- ==== Proof.FoldReads.lean ====
/-
  The buffer contents at the boundaries of the idealized kernel's six segments, read where the proof needs them.

  A host stretch leaves in each buffer it writes the stretch's operations applied to the contents it found, and every
  other buffer as found; a region leaves its output array at what its write-backs fold to and every buffer that is not
  one of its arrays as found. Read along @main this gives: the edge list's two rows, the two coefficient vectors, and
  every weight and bias are, at every later boundary, the same functions of the launch contents; and each layer's two
  aggregates are the shared aggregate function of the previous layer's output and those.
-/
import proofs.«180355_j26706106646645_1_alg».proof.Proof.Gen.KernelIdeal.Frame
import proofs.«180355_j26706106646645_1_alg».proof.Proof.Layers
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Closes `StableHlo.after ops V b = V b` for a literal stretch none of whose operations writes `b`. -/
macro "unwritten" : tactic =>
  `(tactic| (refine StableHlo.after_of_forall_not_mem (b := _) _ _ (List.forall_iff_forall_mem.mp ?_)
             simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-! ## After the first stretch -/
theorem W1_v1 : W1 m ρ c (Proc.devRef .tc main_v1) = (Cert.Gnn.srcOf (m ((c : Thread nD τ).loc main_arg1))) := by
  show StableHlo.after hostOps0 (W0 m ρ c) (Proc.devRef .tc main_v1) = _
  after_results_simp <;> rfl
theorem W1_v3 : W1 m ρ c (Proc.devRef .tc main_v3) = (Cert.Gnn.dstOf (m ((c : Thread nD τ).loc main_arg1))) := by
  show StableHlo.after hostOps0 (W0 m ρ c) (Proc.devRef .tc main_v3) = _
  after_results_simp <;> rfl
theorem W1_v6 : W1 m ρ c (Proc.devRef .tc main_v6) = (Cert.Gnn.crOf (m ((c : Thread nD τ).loc main_arg2)) (m ((c : Thread nD τ).loc main_arg3))) := by
  show StableHlo.after hostOps0 (W0 m ρ c) (Proc.devRef .tc main_v6) = _
  after_results_simp <;> rfl
theorem W1_v9 : W1 m ρ c (Proc.devRef .tc main_v9) = (Cert.Gnn.ciOf (m ((c : Thread nD τ).loc main_arg2)) (m ((c : Thread nD τ).loc main_arg3))) := by
  show StableHlo.after hostOps0 (W0 m ρ c) (Proc.devRef .tc main_v9) = _
  after_results_simp <;> rfl
theorem W1_v22 : W1 m ρ c (Proc.devRef .tc main_v22) = Cert.Gnn.agg75 (m ((c : Thread nD τ).loc main_arg0)) (Cert.Gnn.srcOf (m ((c : Thread nD τ).loc main_arg1))) (Cert.Gnn.dstOf (m ((c : Thread nD τ).loc main_arg1))) (Cert.Gnn.crOf (m ((c : Thread nD τ).loc main_arg2)) (m ((c : Thread nD τ).loc main_arg3))) := by
  show StableHlo.after hostOps0 (W0 m ρ c) (Proc.devRef .tc main_v22) = _
  after_results_simp <;> rfl
theorem W1_v28 : W1 m ρ c (Proc.devRef .tc main_v28) = Cert.Gnn.agg75 (m ((c : Thread nD τ).loc main_arg0)) (Cert.Gnn.srcOf (m ((c : Thread nD τ).loc main_arg1))) (Cert.Gnn.dstOf (m ((c : Thread nD τ).loc main_arg1))) (Cert.Gnn.ciOf (m ((c : Thread nD τ).loc main_arg2)) (m ((c : Thread nD τ).loc main_arg3))) := by
  show StableHlo.after hostOps0 (W0 m ρ c) (Proc.devRef .tc main_v28) = _
  after_results_simp <;> rfl
theorem W1_v29 : W1 m ρ c (Proc.devRef .tc main_v29) = transpose S75x128 [1, 0] (m ((c : Thread nD τ).loc main_arg7)) transposes_S128x75_S75x128_1_0 := by
  show StableHlo.after hostOps0 (W0 m ρ c) (Proc.devRef .tc main_v29) = _
  after_results_simp <;> rfl
theorem W1_v30 : W1 m ρ c (Proc.devRef .tc main_v30) = (addf (m ((c : Thread nD τ).loc main_arg6)) (m ((c : Thread nD τ).loc main_arg8)) : Cert.Gnn.Arr S128) := by
  show StableHlo.after hostOps0 (W0 m ρ c) (Proc.devRef .tc main_v30) = _
  after_results_simp <;> rfl
theorem W1_arg0 : W1 m ρ c (Proc.devRef .tc main_arg0) = (m ((c : Thread nD τ).loc main_arg0)) := (show StableHlo.after hostOps0 (W0 m ρ c) (Proc.devRef .tc main_arg0) = W0 m ρ c (Proc.devRef .tc main_arg0) from by unwritten).trans rfl
theorem W1_arg4 : W1 m ρ c (Proc.devRef .tc main_arg4) = (m ((c : Thread nD τ).loc main_arg4)) := (show StableHlo.after hostOps0 (W0 m ρ c) (Proc.devRef .tc main_arg4) = W0 m ρ c (Proc.devRef .tc main_arg4) from by unwritten).trans rfl
theorem W1_arg5 : W1 m ρ c (Proc.devRef .tc main_arg5) = (m ((c : Thread nD τ).loc main_arg5)) := (show StableHlo.after hostOps0 (W0 m ρ c) (Proc.devRef .tc main_arg5) = W0 m ρ c (Proc.devRef .tc main_arg5) from by unwritten).trans rfl
theorem W1_arg9 : W1 m ρ c (Proc.devRef .tc main_arg9) = (m ((c : Thread nD τ).loc main_arg9)) := (show StableHlo.after hostOps0 (W0 m ρ c) (Proc.devRef .tc main_arg9) = W0 m ρ c (Proc.devRef .tc main_arg9) from by unwritten).trans rfl
theorem W1_arg10 : W1 m ρ c (Proc.devRef .tc main_arg10) = (m ((c : Thread nD τ).loc main_arg10)) := (show StableHlo.after hostOps0 (W0 m ρ c) (Proc.devRef .tc main_arg10) = W0 m ρ c (Proc.devRef .tc main_arg10) from by unwritten).trans rfl
theorem W1_arg11 : W1 m ρ c (Proc.devRef .tc main_arg11) = (m ((c : Thread nD τ).loc main_arg11)) := (show StableHlo.after hostOps0 (W0 m ρ c) (Proc.devRef .tc main_arg11) = W0 m ρ c (Proc.devRef .tc main_arg11) from by unwritten).trans rfl
theorem W1_arg12 : W1 m ρ c (Proc.devRef .tc main_arg12) = (m ((c : Thread nD τ).loc main_arg12)) := (show StableHlo.after hostOps0 (W0 m ρ c) (Proc.devRef .tc main_arg12) = W0 m ρ c (Proc.devRef .tc main_arg12) from by unwritten).trans rfl
theorem W1_arg13 : W1 m ρ c (Proc.devRef .tc main_arg13) = (m ((c : Thread nD τ).loc main_arg13)) := (show StableHlo.after hostOps0 (W0 m ρ c) (Proc.devRef .tc main_arg13) = W0 m ρ c (Proc.devRef .tc main_arg13) from by unwritten).trans rfl
theorem W1_arg14 : W1 m ρ c (Proc.devRef .tc main_arg14) = (m ((c : Thread nD τ).loc main_arg14)) := (show StableHlo.after hostOps0 (W0 m ρ c) (Proc.devRef .tc main_arg14) = W0 m ρ c (Proc.devRef .tc main_arg14) from by unwritten).trans rfl
theorem W1_arg15 : W1 m ρ c (Proc.devRef .tc main_arg15) = (m ((c : Thread nD τ).loc main_arg15)) := (show StableHlo.after hostOps0 (W0 m ρ c) (Proc.devRef .tc main_arg15) = W0 m ρ c (Proc.devRef .tc main_arg15) from by unwritten).trans rfl
theorem W1_arg16 : W1 m ρ c (Proc.devRef .tc main_arg16) = (m ((c : Thread nD τ).loc main_arg16)) := (show StableHlo.after hostOps0 (W0 m ρ c) (Proc.devRef .tc main_arg16) = W0 m ρ c (Proc.devRef .tc main_arg16) from by unwritten).trans rfl
theorem W1_arg17 : W1 m ρ c (Proc.devRef .tc main_arg17) = (m ((c : Thread nD τ).loc main_arg17)) := (show StableHlo.after hostOps0 (W0 m ρ c) (Proc.devRef .tc main_arg17) = W0 m ρ c (Proc.devRef .tc main_arg17) from by unwritten).trans rfl
theorem W1_arg18 : W1 m ρ c (Proc.devRef .tc main_arg18) = (m ((c : Thread nD τ).loc main_arg18)) := (show StableHlo.after hostOps0 (W0 m ρ c) (Proc.devRef .tc main_arg18) = W0 m ρ c (Proc.devRef .tc main_arg18) from by unwritten).trans rfl

/-! ## After region 0: everything but its output array is as it was -/
theorem W2_v1 : W2 m ρ c (Proc.devRef .tc main_v1) = (Cert.Gnn.srcOf (m ((c : Thread nD τ).loc main_arg1))) := (W2_of_ne m ρ c main_v1 (by decide)).trans (W1_v1 m ρ c)
theorem W2_v3 : W2 m ρ c (Proc.devRef .tc main_v3) = (Cert.Gnn.dstOf (m ((c : Thread nD τ).loc main_arg1))) := (W2_of_ne m ρ c main_v3 (by decide)).trans (W1_v3 m ρ c)
theorem W2_v6 : W2 m ρ c (Proc.devRef .tc main_v6) = (Cert.Gnn.crOf (m ((c : Thread nD τ).loc main_arg2)) (m ((c : Thread nD τ).loc main_arg3))) := (W2_of_ne m ρ c main_v6 (by decide)).trans (W1_v6 m ρ c)
theorem W2_v9 : W2 m ρ c (Proc.devRef .tc main_v9) = (Cert.Gnn.ciOf (m ((c : Thread nD τ).loc main_arg2)) (m ((c : Thread nD τ).loc main_arg3))) := (W2_of_ne m ρ c main_v9 (by decide)).trans (W1_v9 m ρ c)
theorem W2_arg9 : W2 m ρ c (Proc.devRef .tc main_arg9) = (m ((c : Thread nD τ).loc main_arg9)) := (W2_of_ne m ρ c main_arg9 (by decide)).trans (W1_arg9 m ρ c)
theorem W2_arg10 : W2 m ρ c (Proc.devRef .tc main_arg10) = (m ((c : Thread nD τ).loc main_arg10)) := (W2_of_ne m ρ c main_arg10 (by decide)).trans (W1_arg10 m ρ c)
theorem W2_arg11 : W2 m ρ c (Proc.devRef .tc main_arg11) = (m ((c : Thread nD τ).loc main_arg11)) := (W2_of_ne m ρ c main_arg11 (by decide)).trans (W1_arg11 m ρ c)
theorem W2_arg12 : W2 m ρ c (Proc.devRef .tc main_arg12) = (m ((c : Thread nD τ).loc main_arg12)) := (W2_of_ne m ρ c main_arg12 (by decide)).trans (W1_arg12 m ρ c)
theorem W2_arg13 : W2 m ρ c (Proc.devRef .tc main_arg13) = (m ((c : Thread nD τ).loc main_arg13)) := (W2_of_ne m ρ c main_arg13 (by decide)).trans (W1_arg13 m ρ c)
theorem W2_arg14 : W2 m ρ c (Proc.devRef .tc main_arg14) = (m ((c : Thread nD τ).loc main_arg14)) := (W2_of_ne m ρ c main_arg14 (by decide)).trans (W1_arg14 m ρ c)
theorem W2_arg15 : W2 m ρ c (Proc.devRef .tc main_arg15) = (m ((c : Thread nD τ).loc main_arg15)) := (W2_of_ne m ρ c main_arg15 (by decide)).trans (W1_arg15 m ρ c)
theorem W2_arg16 : W2 m ρ c (Proc.devRef .tc main_arg16) = (m ((c : Thread nD τ).loc main_arg16)) := (W2_of_ne m ρ c main_arg16 (by decide)).trans (W1_arg16 m ρ c)
theorem W2_arg17 : W2 m ρ c (Proc.devRef .tc main_arg17) = (m ((c : Thread nD τ).loc main_arg17)) := (W2_of_ne m ρ c main_arg17 (by decide)).trans (W1_arg17 m ρ c)
theorem W2_arg18 : W2 m ρ c (Proc.devRef .tc main_arg18) = (m ((c : Thread nD τ).loc main_arg18)) := (W2_of_ne m ρ c main_arg18 (by decide)).trans (W1_arg18 m ρ c)

/-! ## After the second stretch -/
theorem W3_v44 : W3 m ρ c (Proc.devRef .tc main_v44) = Cert.Gnn.agg128 (W2 m ρ c (Proc.devRef .tc main_v31)) (Cert.Gnn.srcOf (m ((c : Thread nD τ).loc main_arg1))) (Cert.Gnn.dstOf (m ((c : Thread nD τ).loc main_arg1))) (Cert.Gnn.crOf (m ((c : Thread nD τ).loc main_arg2)) (m ((c : Thread nD τ).loc main_arg3))) := by
  rw [← W2_v1 m ρ c, ← W2_v3 m ρ c, ← W2_v6 m ρ c]
  show StableHlo.after hostOps1 (W2 m ρ c) (Proc.devRef .tc main_v44) = _
  after_results_simp <;> rfl
theorem W3_v50 : W3 m ρ c (Proc.devRef .tc main_v50) = Cert.Gnn.agg128 (W2 m ρ c (Proc.devRef .tc main_v31)) (Cert.Gnn.srcOf (m ((c : Thread nD τ).loc main_arg1))) (Cert.Gnn.dstOf (m ((c : Thread nD τ).loc main_arg1))) (Cert.Gnn.ciOf (m ((c : Thread nD τ).loc main_arg2)) (m ((c : Thread nD τ).loc main_arg3))) := by
  rw [← W2_v1 m ρ c, ← W2_v3 m ρ c, ← W2_v9 m ρ c]
  show StableHlo.after hostOps1 (W2 m ρ c) (Proc.devRef .tc main_v50) = _
  after_results_simp <;> rfl
theorem W3_v51 : W3 m ρ c (Proc.devRef .tc main_v51) = transpose S128x128 [1, 0] (m ((c : Thread nD τ).loc main_arg12)) transposes_S128x128_S128x128_1_0 := by
  rw [← W2_arg12 m ρ c]
  show StableHlo.after hostOps1 (W2 m ρ c) (Proc.devRef .tc main_v51) = _
  after_results_simp <;> rfl
theorem W3_v52 : W3 m ρ c (Proc.devRef .tc main_v52) = (addf (m ((c : Thread nD τ).loc main_arg11)) (m ((c : Thread nD τ).loc main_arg13)) : Cert.Gnn.Arr S128) := by
  rw [← W2_arg11 m ρ c, ← W2_arg13 m ρ c]
  show StableHlo.after hostOps1 (W2 m ρ c) (Proc.devRef .tc main_v52) = _
  after_results_simp <;> rfl
theorem W3_v31 : W3 m ρ c (Proc.devRef .tc main_v31) = W2 m ρ c (Proc.devRef .tc main_v31) := (show StableHlo.after hostOps1 (W2 m ρ c) (Proc.devRef .tc main_v31) = W2 m ρ c (Proc.devRef .tc main_v31) from by unwritten)
theorem W3_v1 : W3 m ρ c (Proc.devRef .tc main_v1) = (Cert.Gnn.srcOf (m ((c : Thread nD τ).loc main_arg1))) := (show StableHlo.after hostOps1 (W2 m ρ c) (Proc.devRef .tc main_v1) = W2 m ρ c (Proc.devRef .tc main_v1) from by unwritten).trans (W2_v1 m ρ c)
theorem W3_v3 : W3 m ρ c (Proc.devRef .tc main_v3) = (Cert.Gnn.dstOf (m ((c : Thread nD τ).loc main_arg1))) := (show StableHlo.after hostOps1 (W2 m ρ c) (Proc.devRef .tc main_v3) = W2 m ρ c (Proc.devRef .tc main_v3) from by unwritten).trans (W2_v3 m ρ c)
theorem W3_v6 : W3 m ρ c (Proc.devRef .tc main_v6) = (Cert.Gnn.crOf (m ((c : Thread nD τ).loc main_arg2)) (m ((c : Thread nD τ).loc main_arg3))) := (show StableHlo.after hostOps1 (W2 m ρ c) (Proc.devRef .tc main_v6) = W2 m ρ c (Proc.devRef .tc main_v6) from by unwritten).trans (W2_v6 m ρ c)
theorem W3_v9 : W3 m ρ c (Proc.devRef .tc main_v9) = (Cert.Gnn.ciOf (m ((c : Thread nD τ).loc main_arg2)) (m ((c : Thread nD τ).loc main_arg3))) := (show StableHlo.after hostOps1 (W2 m ρ c) (Proc.devRef .tc main_v9) = W2 m ρ c (Proc.devRef .tc main_v9) from by unwritten).trans (W2_v9 m ρ c)
theorem W3_arg9 : W3 m ρ c (Proc.devRef .tc main_arg9) = (m ((c : Thread nD τ).loc main_arg9)) := (show StableHlo.after hostOps1 (W2 m ρ c) (Proc.devRef .tc main_arg9) = W2 m ρ c (Proc.devRef .tc main_arg9) from by unwritten).trans (W2_arg9 m ρ c)
theorem W3_arg10 : W3 m ρ c (Proc.devRef .tc main_arg10) = (m ((c : Thread nD τ).loc main_arg10)) := (show StableHlo.after hostOps1 (W2 m ρ c) (Proc.devRef .tc main_arg10) = W2 m ρ c (Proc.devRef .tc main_arg10) from by unwritten).trans (W2_arg10 m ρ c)
theorem W3_arg14 : W3 m ρ c (Proc.devRef .tc main_arg14) = (m ((c : Thread nD τ).loc main_arg14)) := (show StableHlo.after hostOps1 (W2 m ρ c) (Proc.devRef .tc main_arg14) = W2 m ρ c (Proc.devRef .tc main_arg14) from by unwritten).trans (W2_arg14 m ρ c)
theorem W3_arg15 : W3 m ρ c (Proc.devRef .tc main_arg15) = (m ((c : Thread nD τ).loc main_arg15)) := (show StableHlo.after hostOps1 (W2 m ρ c) (Proc.devRef .tc main_arg15) = W2 m ρ c (Proc.devRef .tc main_arg15) from by unwritten).trans (W2_arg15 m ρ c)
theorem W3_arg16 : W3 m ρ c (Proc.devRef .tc main_arg16) = (m ((c : Thread nD τ).loc main_arg16)) := (show StableHlo.after hostOps1 (W2 m ρ c) (Proc.devRef .tc main_arg16) = W2 m ρ c (Proc.devRef .tc main_arg16) from by unwritten).trans (W2_arg16 m ρ c)
theorem W3_arg17 : W3 m ρ c (Proc.devRef .tc main_arg17) = (m ((c : Thread nD τ).loc main_arg17)) := (show StableHlo.after hostOps1 (W2 m ρ c) (Proc.devRef .tc main_arg17) = W2 m ρ c (Proc.devRef .tc main_arg17) from by unwritten).trans (W2_arg17 m ρ c)
theorem W3_arg18 : W3 m ρ c (Proc.devRef .tc main_arg18) = (m ((c : Thread nD τ).loc main_arg18)) := (show StableHlo.after hostOps1 (W2 m ρ c) (Proc.devRef .tc main_arg18) = W2 m ρ c (Proc.devRef .tc main_arg18) from by unwritten).trans (W2_arg18 m ρ c)

/-! ## After region 1 -/
theorem W4_v1 : W4 m ρ c (Proc.devRef .tc main_v1) = (Cert.Gnn.srcOf (m ((c : Thread nD τ).loc main_arg1))) := (W4_of_ne m ρ c main_v1 (by decide)).trans (W3_v1 m ρ c)
theorem W4_v3 : W4 m ρ c (Proc.devRef .tc main_v3) = (Cert.Gnn.dstOf (m ((c : Thread nD τ).loc main_arg1))) := (W4_of_ne m ρ c main_v3 (by decide)).trans (W3_v3 m ρ c)
theorem W4_v6 : W4 m ρ c (Proc.devRef .tc main_v6) = (Cert.Gnn.crOf (m ((c : Thread nD τ).loc main_arg2)) (m ((c : Thread nD τ).loc main_arg3))) := (W4_of_ne m ρ c main_v6 (by decide)).trans (W3_v6 m ρ c)
theorem W4_v9 : W4 m ρ c (Proc.devRef .tc main_v9) = (Cert.Gnn.ciOf (m ((c : Thread nD τ).loc main_arg2)) (m ((c : Thread nD τ).loc main_arg3))) := (W4_of_ne m ρ c main_v9 (by decide)).trans (W3_v9 m ρ c)
theorem W4_arg14 : W4 m ρ c (Proc.devRef .tc main_arg14) = (m ((c : Thread nD τ).loc main_arg14)) := (W4_of_ne m ρ c main_arg14 (by decide)).trans (W3_arg14 m ρ c)
theorem W4_arg15 : W4 m ρ c (Proc.devRef .tc main_arg15) = (m ((c : Thread nD τ).loc main_arg15)) := (W4_of_ne m ρ c main_arg15 (by decide)).trans (W3_arg15 m ρ c)
theorem W4_arg16 : W4 m ρ c (Proc.devRef .tc main_arg16) = (m ((c : Thread nD τ).loc main_arg16)) := (W4_of_ne m ρ c main_arg16 (by decide)).trans (W3_arg16 m ρ c)
theorem W4_arg17 : W4 m ρ c (Proc.devRef .tc main_arg17) = (m ((c : Thread nD τ).loc main_arg17)) := (W4_of_ne m ρ c main_arg17 (by decide)).trans (W3_arg17 m ρ c)
theorem W4_arg18 : W4 m ρ c (Proc.devRef .tc main_arg18) = (m ((c : Thread nD τ).loc main_arg18)) := (W4_of_ne m ρ c main_arg18 (by decide)).trans (W3_arg18 m ρ c)

/-! ## After the third stretch -/
theorem W5_v66 : W5 m ρ c (Proc.devRef .tc main_v66) = Cert.Gnn.agg128 (W4 m ρ c (Proc.devRef .tc main_v53)) (Cert.Gnn.srcOf (m ((c : Thread nD τ).loc main_arg1))) (Cert.Gnn.dstOf (m ((c : Thread nD τ).loc main_arg1))) (Cert.Gnn.crOf (m ((c : Thread nD τ).loc main_arg2)) (m ((c : Thread nD τ).loc main_arg3))) := by
  rw [← W4_v1 m ρ c, ← W4_v3 m ρ c, ← W4_v6 m ρ c]
  show StableHlo.after hostOps2 (W4 m ρ c) (Proc.devRef .tc main_v66) = _
  after_results_simp <;> rfl
theorem W5_v72 : W5 m ρ c (Proc.devRef .tc main_v72) = Cert.Gnn.agg128 (W4 m ρ c (Proc.devRef .tc main_v53)) (Cert.Gnn.srcOf (m ((c : Thread nD τ).loc main_arg1))) (Cert.Gnn.dstOf (m ((c : Thread nD τ).loc main_arg1))) (Cert.Gnn.ciOf (m ((c : Thread nD τ).loc main_arg2)) (m ((c : Thread nD τ).loc main_arg3))) := by
  rw [← W4_v1 m ρ c, ← W4_v3 m ρ c, ← W4_v9 m ρ c]
  show StableHlo.after hostOps2 (W4 m ρ c) (Proc.devRef .tc main_v72) = _
  after_results_simp <;> rfl
theorem W5_v73 : W5 m ρ c (Proc.devRef .tc main_v73) = transpose S128x32 [1, 0] (m ((c : Thread nD τ).loc main_arg17)) transposes_S32x128_S128x32_1_0 := by
  rw [← W4_arg17 m ρ c]
  show StableHlo.after hostOps2 (W4 m ρ c) (Proc.devRef .tc main_v73) = _
  after_results_simp <;> rfl
theorem W5_v74 : W5 m ρ c (Proc.devRef .tc main_v74) = (addf (m ((c : Thread nD τ).loc main_arg16)) (m ((c : Thread nD τ).loc main_arg18)) : Cert.Gnn.Arr S32) := by
  rw [← W4_arg16 m ρ c, ← W4_arg18 m ρ c]
  show StableHlo.after hostOps2 (W4 m ρ c) (Proc.devRef .tc main_v74) = _
  after_results_simp <;> rfl
theorem W5_v53 : W5 m ρ c (Proc.devRef .tc main_v53) = W4 m ρ c (Proc.devRef .tc main_v53) := (show StableHlo.after hostOps2 (W4 m ρ c) (Proc.devRef .tc main_v53) = W4 m ρ c (Proc.devRef .tc main_v53) from by unwritten)
theorem W5_arg14 : W5 m ρ c (Proc.devRef .tc main_arg14) = (m ((c : Thread nD τ).loc main_arg14)) := (show StableHlo.after hostOps2 (W4 m ρ c) (Proc.devRef .tc main_arg14) = W4 m ρ c (Proc.devRef .tc main_arg14) from by unwritten).trans (W4_arg14 m ρ c)
theorem W5_arg15 : W5 m ρ c (Proc.devRef .tc main_arg15) = (m ((c : Thread nD τ).loc main_arg15)) := (show StableHlo.after hostOps2 (W4 m ρ c) (Proc.devRef .tc main_arg15) = W4 m ρ c (Proc.devRef .tc main_arg15) from by unwritten).trans (W4_arg15 m ρ c)

end Cert.KernelIdeal.Fold

end
-- ==== Proof.Pay0.lean ====
/-
  Region 0's body at one element.

  The body of region 0 takes three blocks of 2000 rows and 75 channels (the two aggregates' blocks and the features'
  block), three 75 × 128 weight arrays and a bias of length 128. It multiplies each block with its weight array into a
  zero accumulator, subtracts the second product from the first, adds the third, adds the bias row broadcast over the
  2000 rows and takes the maximum with zero. Narrowing a value to a shorter float format, and recasting an array to
  its own shape, change nothing at the ideal values. A product into a zero accumulator read at row `p` and column `q`
  is the contraction `∑ k, l (p, k) * r (k, q)` over the 75 channels: the product's one contracted axis is identified
  with `Fin 75` and the two operand indices at `(p, q)` and `k` are `(p, k)` and `(k, q)`. So the element at `(p, q)` is
  the dense step's element at 2000 rows.
-/
import proofs.«180355_j26706106646645_1_alg».proof.Proof.Gen.KernelIdeal.Skeleton
import proofs.«180355_j26706106646645_1_alg».proof.Proof.DenseStep
import Idealize.ShloMosaic.Lib.Pipeline.Value
import Idealize.ShloMosaic.Lib.ValueIdx
import Idealize.ShloMosaic.Lib.ValueLayout
import Idealize.ShloMosaic.PureOps.Ideal.Laws

noncomputable section

namespace Cert.Pay0

open Idealize.ShloMosaic Idealize.ShloMosaic.ValueIdx Cert.KernelIdeal Cert.KernelIdeal.Gen

/-- Row coordinate of the first operand's index: the output's row. -/
theorem lhs_row (i : S2000x128.Idx) (kk : dot_S2000x75_S75x128_S2000x128_1_0_0_1_n_n.contr.Idx) :
    (dot_S2000x75_S75x128_S2000x128_1_0_0_1_n_n.lhsIdx i kk 0).val = (i 0).val := by
  unfold DotDims.lhsIdx
  rw [dif_neg (show ¬(0 : Fin S2000x75.rank) ∈ dot_S2000x75_S75x128_S2000x128_1_0_0_1_n_n.lhsBatch by decide),
    dif_pos (show (0 : Fin S2000x75.rank) ∈ dot_S2000x75_S75x128_S2000x128_1_0_0_1_n_n.lhsNonContracting by decide)]
  rfl
/-- Its channel coordinate: the contraction coordinate. -/
theorem lhs_chan (i : S2000x128.Idx) (kk : dot_S2000x75_S75x128_S2000x128_1_0_0_1_n_n.contr.Idx) :
    (dot_S2000x75_S75x128_S2000x128_1_0_0_1_n_n.lhsIdx i kk 1).val = (kk ⟨0, by decide⟩).val :=
  dot_S2000x75_S75x128_S2000x128_1_0_0_1_n_n.lhsIdx_val_of_single rfl i kk
/-- Row coordinate of the second operand's index: the contraction coordinate. -/
theorem rhs_chan (i : S2000x128.Idx) (kk : dot_S2000x75_S75x128_S2000x128_1_0_0_1_n_n.contr.Idx) :
    (dot_S2000x75_S75x128_S2000x128_1_0_0_1_n_n.rhsIdx i kk 0).val = (kk ⟨0, by decide⟩).val :=
  dot_S2000x75_S75x128_S2000x128_1_0_0_1_n_n.rhsIdx_val_of_single rfl i kk
/-- Its column coordinate: the output's column. -/
theorem rhs_col (i : S2000x128.Idx) (kk : dot_S2000x75_S75x128_S2000x128_1_0_0_1_n_n.contr.Idx) :
    (dot_S2000x75_S75x128_S2000x128_1_0_0_1_n_n.rhsIdx i kk 1).val = (i 1).val := by
  unfold DotDims.rhsIdx
  rw [dif_neg (show ¬(1 : Fin S75x128.rank) ∈ dot_S2000x75_S75x128_S2000x128_1_0_0_1_n_n.rhsBatch by decide),
    dif_pos (show (1 : Fin S75x128.rank) ∈ dot_S2000x75_S75x128_S2000x128_1_0_0_1_n_n.rhsNonContracting by decide)]
  rfl

/-- The first operand's index of the block product at output `(p, q)` and contraction coordinate `k` is `(p, k)`. -/
theorem lhsIdx_eq (p : Fin 2000) (q : Fin 128) (k : Fin 75) :
    dot_S2000x75_S75x128_S2000x128_1_0_0_1_n_n.lhsIdx (ix2 p q)
      ((contrEquiv1 dot_S2000x75_S75x128_S2000x128_1_0_0_1_n_n 75 rfl rfl).symm k) = ix2 p k := by
  have hk := contrEquiv1_symm_val dot_S2000x75_S75x128_S2000x128_1_0_0_1_n_n 75 rfl rfl k
  refine funext fun a => Fin.ext ?_
  match a with
  | ⟨0, _⟩ => exact lhs_row _ _
  | ⟨1, _⟩ => exact (lhs_chan _ _).trans hk

/-- The second operand's index there is `(k, q)`. -/
theorem rhsIdx_eq (p : Fin 2000) (q : Fin 128) (k : Fin 75) :
    dot_S2000x75_S75x128_S2000x128_1_0_0_1_n_n.rhsIdx (ix2 p q)
      ((contrEquiv1 dot_S2000x75_S75x128_S2000x128_1_0_0_1_n_n 75 rfl rfl).symm k) = ix2 k q := by
  have hk := contrEquiv1_symm_val dot_S2000x75_S75x128_S2000x128_1_0_0_1_n_n 75 rfl rfl k
  refine funext fun a => Fin.ext ?_
  match a with
  | ⟨0, _⟩ => exact (rhs_chan _ _).trans hk
  | ⟨1, _⟩ => exact rhs_col _ _

/-- A block product into the zero accumulator, read at `(p, q)`, is the contraction over the 75 channels. -/
theorem matmul_zero_apply (l : FVec Ideal S2000x75 .bf16) (r : FVec Ideal S75x128 .bf16) (p : Fin 2000) (q : Fin 128) :
    matmul dot_S2000x75_S75x128_S2000x128_1_0_0_1_n_n none l r (constant S2000x128 .f32 0x00000000#32) (ix2 p q)
      = ∑ k : Fin 75, l (ix2 p k) * r (ix2 k q) := by
  refine (Ideal.matmul_constant_zero_apply dot_S2000x75_S75x128_S2000x128_1_0_0_1_n_n none l r (ix2 p q)).trans ?_
  rw [← Equiv.sum_comp (contrEquiv1 dot_S2000x75_S75x128_S2000x128_1_0_0_1_n_n 75 rfl rfl).symm]
  refine Finset.sum_congr rfl fun k _ => ?_
  rw [lhsIdx_eq, rhsIdx_eq]

/-- The bias row broadcast over the block's rows, read at `(p, q)`, is the bias at `q`. -/
theorem bias_apply (b : Vec Ideal S128 .f32) (p : Fin 2000) (q : Fin 128) :
    broadcastTo S2000x128 (shapeCast S1x128 b shapeCasts_S128_S1x128) broadcasts_S1x128_S2000x128 (ix2 p q) = b (ix1 q) :=
  (broadcastTo_1b_ab_apply _ broadcasts_S1x128_S2000x128 p q).trans (shapeCast_a_1a_apply b shapeCasts_S128_S1x128 0 q)

/-- The body's value at row `p` and column `q` of its block is the dense step's element at 2000 rows, 75 channels in
    and 128 out, of the seven arrays it read. -/
theorem pay0_apply (v0 v3 v6 : Vec Ideal S2000x75 .f32) (v8 v10 v12 : Vec Ideal S75x128 .f32) (v20 : Vec Ideal S128 .f32)
    (p : Fin 2000) (q : Fin 128) :
    Cert.KernelIdeal.Gen.k0_pay1 v0 v3 v6 v8 v10 v12 v20 (ix2 p q)
      = Cert.DenseStep.elt (N := 2000) (K := 75) (M := 128) v0 v3 v6 v8 v10 v12 v20 p q := by
  unfold Cert.KernelIdeal.Gen.k0_pay1 Cert.DenseStep.elt Cert.DenseStep.proj
  simp only [shapeCast_self]
  refine (maximumf_apply _ _ _).trans (congrArg₂ max ?_ Ideal.ofBits_zero_f32)
  refine (addf_apply _ _ _).trans (congrArg₂ (· + ·) ?_ (bias_apply v20 p q))
  refine (addf_apply _ _ _).trans (congrArg₂ (· + ·) ?_ (matmul_zero_apply _ _ p q))
  exact (subf_apply _ _ _).trans (congrArg₂ (· - ·) (matmul_zero_apply _ _ p q) (matmul_zero_apply _ _ p q))

end Cert.Pay0

end
-- ==== Proof.DenseRows.lean ====
/-
  A block of rows of the dense step.

  The dense step's element at row `p` and column `q` uses only row `p` of the two aggregates and of the features
  (and the whole weight arrays and bias). So if three arrays of `n` rows agree, on their row `p`, with row `r` of three
  arrays of `N` rows, the element at `(p, q)` of the small arrays is the element at `(r, q)` of the large ones: the
  three contractions are sums of the same products.
-/
import proofs.«180355_j26706106646645_1_alg».proof.Proof.DenseStep

noncomputable section

namespace Cert.DenseRows

open Idealize.ShloMosaic Idealize.ShloMosaic.ValueIdx Cert.DenseStep

/-- Row `p` of the three `n`-row arrays is row `r` of the three `N`-row arrays: then the dense step's elements there agree. -/
theorem elt_rows {n N K M : Nat} (x0 x1 x2 : FVec Ideal ⟨2, ![n, K]⟩ .f32) (ar ai x : FVec Ideal ⟨2, ![N, K]⟩ .f32)
    (wr wi lwt : FVec Ideal ⟨2, ![K, M]⟩ .f32) (b : FVec Ideal ⟨1, ![M]⟩ .f32) (p : Fin n) (r : Fin N) (q : Fin M)
    (h0 : ∀ k, x0 (ix2 p k) = ar (ix2 r k)) (h1 : ∀ k, x1 (ix2 p k) = ai (ix2 r k)) (h2 : ∀ k, x2 (ix2 p k) = x (ix2 r k)) :
    elt x0 x1 x2 wr wi lwt b p q = elt ar ai x wr wi lwt b r q := by
  unfold elt proj
  simp only [h0, h1, h2]

end Cert.DenseRows

end
-- ==== Proof.Region0.lean ====
/-
  Region 0's output array, as one function of the arrays the region finds.

  Region 0 runs its body at 25 grid points. At point `t` the body sees rows `2000 t, …, 2000 t + 1999` of three arrays of
  50000 rows and 75 channels (the two aggregates and the features of the first layer), the three 75 × 128 weight arrays and the
  bias whole, and writes rows `2000 t, …, 2000 t + 1999` of the 50000 × 128 output. The body's value at row `p` and column
  `q` of its block is the dense step's element of the seven blocks; that element uses only row `p` of the three row
  blocks, which is row `2000 t + p` of the whole arrays; so point `t` writes rows `2000 t, …` of the dense step of the
  whole arrays. Row `r` of the output lies in the block of point `r / 2000`, so the 25 blocks cover the output, and the
  output array after the region is the dense step of the arrays the region found.
-/
import proofs.«180355_j26706106646645_1_alg».proof.Proof.Gen.KernelIdeal.Frame
import proofs.«180355_j26706106646645_1_alg».proof.Proof.Pay0
import proofs.«180355_j26706106646645_1_alg».proof.Proof.DenseRows
import Idealize.ShloMosaic.Lib.Pipeline.Value
import Idealize.ShloMosaic.Lib.ValueIdx

noncomputable section

namespace Cert.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The block index of every window at every one of the 25 points: the three row-blocked inputs and the output are at
    block row `t` and column block 0; the weights and the bias are at block 0 on every axis. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- The dense step of the seven arrays region 0 finds. -/
abbrev denseOf (c : Dev nD) : S50000x128.Idx → EReal :=
  Cert.DenseStep.dense (N := 50000) (K := 75) (M := 128) (V c main_v22) (V c main_v28) (V c main_arg0) (V c main_arg4) (V c main_arg5) (V c main_v29) (V c main_v30)

/-- Window 0's block at point `t` is rows `2000 t, …, 2000 t + 1999` of the first aggregate. -/
theorem rows_aggRe (c : Dev nD) (t : Fin cfg0.N) (p : Fin 2000) (r : Fin 50000) (hr : r.val = 2000 * t.val + p.val) (k : Fin 75) :
    (iblk0 V c 0 t : Vec Ideal S2000x75 .f32) (ix2 p k) = (V c main_v22 : Vec Ideal S50000x75 .f32) (ix2 r k) := by
  obtain ⟨e0, e1, -⟩ := blockIndex t
  unfold iblk0
  show V c main_v22 (((cfg0.win 0).blk t).view.emb (ix2 p k)) = V c main_v22 (ix2 r k)
  congr 1
  funext a
  apply Fin.ext
  match a with
  | ⟨0, _⟩ => show win0_0.index t (0 : Fin 2) * 2000 + 1 * p.val = r.val; rw [e0, hr]; omega
  | ⟨1, _⟩ => show win0_0.index t (1 : Fin 2) * 75 + 1 * k.val = k.val; rw [e1]; omega

/-- Window 1's block at point `t` is rows `2000 t, …, 2000 t + 1999` of the second aggregate. -/
theorem rows_aggIm (c : Dev nD) (t : Fin cfg0.N) (p : Fin 2000) (r : Fin 50000) (hr : r.val = 2000 * t.val + p.val) (k : Fin 75) :
    (iblk0 V c 1 t : Vec Ideal S2000x75 .f32) (ix2 p k) = (V c main_v28 : Vec Ideal S50000x75 .f32) (ix2 r k) := by
  obtain ⟨-, -, e0, e1, -⟩ := blockIndex t
  unfold iblk0
  show V c main_v28 (((cfg0.win 1).blk t).view.emb (ix2 p k)) = V c main_v28 (ix2 r k)
  congr 1
  funext a
  apply Fin.ext
  match a with
  | ⟨0, _⟩ => show win0_1.index t (0 : Fin 2) * 2000 + 1 * p.val = r.val; rw [e0, hr]; omega
  | ⟨1, _⟩ => show win0_1.index t (1 : Fin 2) * 75 + 1 * k.val = k.val; rw [e1]; omega

/-- Window 2's block at point `t` is rows `2000 t, …, 2000 t + 1999` of the features. -/
theorem rows_feat (c : Dev nD) (t : Fin cfg0.N) (p : Fin 2000) (r : Fin 50000) (hr : r.val = 2000 * t.val + p.val) (k : Fin 75) :
    (iblk0 V c 2 t : Vec Ideal S2000x75 .f32) (ix2 p k) = (V c main_arg0 : Vec Ideal S50000x75 .f32) (ix2 r k) := by
  obtain ⟨-, -, -, -, e0, e1, -⟩ := blockIndex t
  unfold iblk0
  show V c main_arg0 (((cfg0.win 2).blk t).view.emb (ix2 p k)) = V c main_arg0 (ix2 r k)
  congr 1
  funext a
  apply Fin.ext
  match a with
  | ⟨0, _⟩ => show win0_2.index t (0 : Fin 2) * 2000 + 1 * p.val = r.val; rw [e0, hr]; omega
  | ⟨1, _⟩ => show win0_2.index t (1 : Fin 2) * 75 + 1 * k.val = k.val; rw [e1]; omega

/-- Window 3 holds the first weight array, whole, at every point. -/
theorem whole_wr (c : Dev nD) (t : Fin cfg0.N) : (iblk0 V c 3 t : Vec Ideal S75x128 .f32) = (V c main_arg4 : Vec Ideal S75x128 .f32) := by
  obtain ⟨-, -, -, -, -, -, e0, e1, -⟩ := blockIndex t
  funext y
  unfold iblk0
  show V c main_arg4 (((cfg0.win 3).blk t).view.emb y) = V c main_arg4 y
  congr 1
  funext a
  apply Fin.ext
  match a with
  | ⟨0, _⟩ => show win0_3.index t (0 : Fin 2) * 75 + 1 * (y 0).val = (y 0).val; rw [e0]; omega
  | ⟨1, _⟩ => show win0_3.index t (1 : Fin 2) * 128 + 1 * (y 1).val = (y 1).val; rw [e1]; omega

/-- Window 4 holds the second weight array, whole, at every point. -/
theorem whole_wi (c : Dev nD) (t : Fin cfg0.N) : (iblk0 V c 4 t : Vec Ideal S75x128 .f32) = (V c main_arg5 : Vec Ideal S75x128 .f32) := by
  obtain ⟨-, -, -, -, -, -, -, -, e0, e1, -⟩ := blockIndex t
  funext y
  unfold iblk0
  show V c main_arg5 (((cfg0.win 4).blk t).view.emb y) = V c main_arg5 y
  congr 1
  funext a
  apply Fin.ext
  match a with
  | ⟨0, _⟩ => show win0_4.index t (0 : Fin 2) * 75 + 1 * (y 0).val = (y 0).val; rw [e0]; omega
  | ⟨1, _⟩ => show win0_4.index t (1 : Fin 2) * 128 + 1 * (y 1).val = (y 1).val; rw [e1]; omega

/-- Window 5 holds the residual weight array, whole, at every point. -/
theorem whole_lwt (c : Dev nD) (t : Fin cfg0.N) : (iblk0 V c 5 t : Vec Ideal S75x128 .f32) = (V c main_v29 : Vec Ideal S75x128 .f32) := by
  obtain ⟨-, -, -, -, -, -, -, -, -, -, e0, e1, -⟩ := blockIndex t
  funext y
  unfold iblk0
  show V c main_v29 (((cfg0.win 5).blk t).view.emb y) = V c main_v29 y
  congr 1
  funext a
  apply Fin.ext
  match a with
  | ⟨0, _⟩ => show win0_5.index t (0 : Fin 2) * 75 + 1 * (y 0).val = (y 0).val; rw [e0]; omega
  | ⟨1, _⟩ => show win0_5.index t (1 : Fin 2) * 128 + 1 * (y 1).val = (y 1).val; rw [e1]; omega

/-- Window 6 holds the bias, whole, at every point. -/
theorem whole_bias (c : Dev nD) (t : Fin cfg0.N) : (iblk0 V c 6 t : Vec Ideal S128 .f32) = (V c main_v30 : Vec Ideal S128 .f32) := by
  obtain ⟨-, -, -, -, -, -, -, -, -, -, -, -, e0, -⟩ := blockIndex t
  funext y
  unfold iblk0
  show V c main_v30 (((cfg0.win 6).blk t).view.emb y) = V c main_v30 y
  congr 1
  funext a
  apply Fin.ext
  match a with
  | ⟨0, _⟩ => show win0_6.index t (0 : Fin 1) * 128 + 1 * (y 0).val = (y 0).val; rw [e0]; omega

/-- One element of what a point writes: the body's value at `j`, of seven blocks whose rows are rows of the whole
    arrays, is the dense step of the whole arrays at the array index `i` that `j` sits at. -/
theorem written_elt (x0 x1 x2 : Vec Ideal S2000x75 .f32) (x3 x4 x5 : Vec Ideal S75x128 .f32) (x6 : Vec Ideal S128 .f32)
    (ar ai x : Vec Ideal S50000x75 .f32) (wr wi lwt : Vec Ideal S75x128 .f32) (b : Vec Ideal S128 .f32)
    (j : S2000x128.Idx) (i : S50000x128.Idx) (p : Fin 2000) (q : Fin 128) (r : Fin 50000)
    (hp : (j 0).val = p.val) (hq : (j 1).val = q.val) (hr : (i 0).val = r.val) (hq' : (i 1).val = q.val)
    (h0 : ∀ k : Fin 75, x0 (ix2 p k) = ar (ix2 r k)) (h1 : ∀ k : Fin 75, x1 (ix2 p k) = ai (ix2 r k))
    (h2 : ∀ k : Fin 75, x2 (ix2 p k) = x (ix2 r k)) (h3 : x3 = wr) (h4 : x4 = wi) (h5 : x5 = lwt) (h6 : x6 = b) :
    k0_pay1 x0 x1 x2 x3 x4 x5 x6 j = Cert.DenseStep.dense (N := 50000) (K := 75) (M := 128) ar ai x wr wi lwt b i := by
  subst h3 h4 h5 h6
  obtain rfl : j = ix2 p q := funext fun a => Fin.ext (by match a with | ⟨0, _⟩ => exact hp | ⟨1, _⟩ => exact hq)
  obtain rfl : i = ix2 r q := funext fun a => Fin.ext (by match a with | ⟨0, _⟩ => exact hr | ⟨1, _⟩ => exact hq')
  exact (Cert.Pay0.pay0_apply x0 x1 x2 x3 x4 x5 x6 p q).trans
    (Cert.DenseRows.elt_rows x0 x1 x2 ar ai x x3 x4 x5 x6 p r q h0 h1 h2)

/-- What point `t` writes back is block `t` of the dense step of the whole arrays. -/
theorem written_eq (c : Dev nD) (t : Fin cfg0.N) :
    (dat0 V c).flushed 7 t = ((cfg0.win 7).blk t).view.read (Elt Ideal) (denseOf V c) := by
  show (cfg0.win 7).cut (grid0.coords t) ((dat0 V c).after 7 t) = _
  rw [after0_7]
  unfold out0_7
  rw [View.canon_unit_zero zeros2]
  simp only [View.ld_unit_zero (S := S2000x75) zeros2, View.ld_unit_zero (S := S75x128) zeros2, View.ld_unit_zero (S := S128) zeros1]
  funext j
  obtain ⟨-, -, -, -, -, -, -, -, -, -, -, -, -, e0, e1⟩ := blockIndex t
  have ht : t.val < 25 := lt_of_lt_of_eq t.isLt N_0
  have hj0 : (j 0).val < 2000 := (j 0).isLt
  have hj1 : (j 1).val < 128 := (j 1).isLt
  show k0_pay1 (iblk0 V c 0 t) (iblk0 V c 1 t) (iblk0 V c 2 t) (iblk0 V c 3 t) (iblk0 V c 4 t) (iblk0 V c 5 t) (iblk0 V c 6 t) j
    = denseOf V c (((cfg0.win 7).blk t).view.emb j)
  refine written_elt (iblk0 V c 0 t) (iblk0 V c 1 t) (iblk0 V c 2 t) (iblk0 V c 3 t) (iblk0 V c 4 t) (iblk0 V c 5 t) (iblk0 V c 6 t)
    (V c main_v22) (V c main_v28) (V c main_arg0) (V c main_arg4) (V c main_arg5) (V c main_v29) (V c main_v30)
    j (((cfg0.win 7).blk t).view.emb j) ⟨(j 0).val, hj0⟩ ⟨(j 1).val, hj1⟩ ⟨2000 * t.val + (j 0).val, by omega⟩
    rfl rfl ?_ ?_ (fun k => rows_aggRe V c t _ _ rfl k) (fun k => rows_aggIm V c t _ _ rfl k) (fun k => rows_feat V c t _ _ rfl k)
    (whole_wr V c t) (whole_wi V c t) (whole_lwt V c t) (whole_bias V c t)
  · show win0_7.index t (0 : Fin 2) * 2000 + 1 * (j 0).val = 2000 * t.val + (j 0).val
    rw [e0]; omega
  · show win0_7.index t (1 : Fin 2) * 128 + 1 * (j 1).val = (j 1).val
    rw [e1]; omega

/-- An index of the output array is in point `t`'s block iff each coordinate is in the block's range on its axis. -/
theorem mem_block (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v31).slice (win0_7.rect t)).set ↔ _
  rw [View.set_slice_whole, Rect.mem_set_unit]
  exact Iff.rfl

/-- Row `r` of the output array is in the block of point `r / 2000`: the 25 blocks cover the array. -/
theorem rows_covered (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 25 := N_0
  have hlt : (i 0).val / 2000 < cfg0.N := by rw [hN]; omega
  obtain ⟨-, -, -, -, -, -, -, -, -, -, -, -, -, e0, e1⟩ := blockIndex ⟨(i 0).val / 2000, hlt⟩
  refine ⟨⟨(i 0).val / 2000, hlt⟩, flush0_7 _, ?_⟩
  rw [mem_block]
  intro a
  match a with
  | ⟨0, _⟩ =>
    show win0_7.index ⟨(i 0).val / 2000, hlt⟩ (0 : Fin 2) * 2000 ≤ (i 0).val ∧ (i 0).val < win0_7.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_7.index ⟨(i 0).val / 2000, hlt⟩ (1 : Fin 2) * 128 ≤ (i 1).val ∧ (i 1).val < win0_7.index ⟨(i 0).val / 2000, hlt⟩ (1 : Fin 2) * 128 + 128
    rw [e1]; omega

/-- Region 0's output array after the region is the dense step of the seven arrays the region found. -/
theorem region0_array (c : Dev nD) :
    (dat0 V c).arrAt 7 cfg0.N
      = Cert.DenseStep.dense (N := 50000) (K := 75) (M := 128) (V c main_v22) (V c main_v28) (V c main_arg0) (V c main_arg4) (V c main_arg5) (V c main_v29) (V c main_v30) :=
  (dat0 V c).arrAt_eq_of_cover 7 (denseOf V c) (fun t _ => written_eq V c t) rows_covered

end Cert.Region0

end
-- ==== Proof.Pay1.lean ====
/-
  Region 1's body at one element.

  The body of region 1 takes three blocks of 2000 rows and 128 channels (the two aggregates' blocks and the features'
  block), three 128 × 128 weight arrays and a bias of length 128. It multiplies each block with its weight array into a
  zero accumulator, subtracts the second product from the first, adds the third, adds the bias row broadcast over the
  2000 rows and takes the maximum with zero. Narrowing a value to a shorter float format, and recasting an array to
  its own shape, change nothing at the ideal values. A product into a zero accumulator read at row `p` and column `q`
  is the contraction `∑ k, l (p, k) * r (k, q)` over the 128 channels: the product's one contracted axis is identified
  with `Fin 128` and the two operand indices at `(p, q)` and `k` are `(p, k)` and `(k, q)`. So the element at `(p, q)` is
  the dense step's element at 2000 rows.
-/
import proofs.«180355_j26706106646645_1_alg».proof.Proof.Gen.KernelIdeal.Skeleton
import proofs.«180355_j26706106646645_1_alg».proof.Proof.DenseStep
import Idealize.ShloMosaic.Lib.Pipeline.Value
import Idealize.ShloMosaic.Lib.ValueIdx
import Idealize.ShloMosaic.Lib.ValueLayout
import Idealize.ShloMosaic.PureOps.Ideal.Laws

noncomputable section

namespace Cert.Pay1

open Idealize.ShloMosaic Idealize.ShloMosaic.ValueIdx Cert.KernelIdeal Cert.KernelIdeal.Gen

/-- Row coordinate of the first operand's index: the output's row. -/
theorem lhs_row (i : S2000x128.Idx) (kk : dot_S2000x128_S128x128_S2000x128_1_0_0_1_n_n.contr.Idx) :
    (dot_S2000x128_S128x128_S2000x128_1_0_0_1_n_n.lhsIdx i kk 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
/-- Its channel coordinate: the contraction coordinate. -/
theorem lhs_chan (i : S2000x128.Idx) (kk : dot_S2000x128_S128x128_S2000x128_1_0_0_1_n_n.contr.Idx) :
    (dot_S2000x128_S128x128_S2000x128_1_0_0_1_n_n.lhsIdx i kk 1).val = (kk ⟨0, by decide⟩).val :=
  dot_S2000x128_S128x128_S2000x128_1_0_0_1_n_n.lhsIdx_val_of_single rfl i kk
/-- Row coordinate of the second operand's index: the contraction coordinate. -/
theorem rhs_chan (i : S2000x128.Idx) (kk : dot_S2000x128_S128x128_S2000x128_1_0_0_1_n_n.contr.Idx) :
    (dot_S2000x128_S128x128_S2000x128_1_0_0_1_n_n.rhsIdx i kk 0).val = (kk ⟨0, by decide⟩).val :=
  dot_S2000x128_S128x128_S2000x128_1_0_0_1_n_n.rhsIdx_val_of_single rfl i kk
/-- Its column coordinate: the output's column. -/
theorem rhs_col (i : S2000x128.Idx) (kk : dot_S2000x128_S128x128_S2000x128_1_0_0_1_n_n.contr.Idx) :
    (dot_S2000x128_S128x128_S2000x128_1_0_0_1_n_n.rhsIdx i kk 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The first operand's index of the block product at output `(p, q)` and contraction coordinate `k` is `(p, k)`. -/
theorem lhsIdx_eq (p : Fin 2000) (q : Fin 128) (k : Fin 128) :
    dot_S2000x128_S128x128_S2000x128_1_0_0_1_n_n.lhsIdx (ix2 p q)
      ((contrEquiv1 dot_S2000x128_S128x128_S2000x128_1_0_0_1_n_n 128 rfl rfl).symm k) = ix2 p k := by
  have hk := contrEquiv1_symm_val dot_S2000x128_S128x128_S2000x128_1_0_0_1_n_n 128 rfl rfl k
  refine funext fun a => Fin.ext ?_
  match a with
  | ⟨0, _⟩ => exact lhs_row _ _
  | ⟨1, _⟩ => exact (lhs_chan _ _).trans hk

/-- The second operand's index there is `(k, q)`. -/
theorem rhsIdx_eq (p : Fin 2000) (q : Fin 128) (k : Fin 128) :
    dot_S2000x128_S128x128_S2000x128_1_0_0_1_n_n.rhsIdx (ix2 p q)
      ((contrEquiv1 dot_S2000x128_S128x128_S2000x128_1_0_0_1_n_n 128 rfl rfl).symm k) = ix2 k q := by
  have hk := contrEquiv1_symm_val dot_S2000x128_S128x128_S2000x128_1_0_0_1_n_n 128 rfl rfl k
  refine funext fun a => Fin.ext ?_
  match a with
  | ⟨0, _⟩ => exact (rhs_chan _ _).trans hk
  | ⟨1, _⟩ => exact rhs_col _ _

/-- A block product into the zero accumulator, read at `(p, q)`, is the contraction over the 128 channels. -/
theorem matmul_zero_apply (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (contrEquiv1 dot_S2000x128_S128x128_S2000x128_1_0_0_1_n_n 128 rfl rfl).symm]
  refine Finset.sum_congr rfl fun k _ => ?_
  rw [lhsIdx_eq, rhsIdx_eq]

/-- The bias row broadcast over the block's rows, read at `(p, q)`, is the bias at `q`. -/
theorem bias_apply (b : Vec Ideal S128 .f32) (p : Fin 2000) (q : Fin 128) :
    broadcastTo S2000x128 (shapeCast S1x128 b shapeCasts_S128_S1x128) broadcasts_S1x128_S2000x128 (ix2 p q) = b (ix1 q) :=
  (broadcastTo_1b_ab_apply _ broadcasts_S1x128_S2000x128 p q).trans (shapeCast_a_1a_apply b shapeCasts_S128_S1x128 0 q)

/-- The body's value at row `p` and column `q` of its block is the dense step's element at 2000 rows, 128 channels in
    and 128 out, of the seven arrays it read. -/
theorem pay1_apply (v0 v3 v6 : Vec Ideal S2000x128 .f32) (v9 v11 v13 : Vec Ideal S128x128 .f32) (v21 : Vec Ideal S128 .f32)
    (p : Fin 2000) (q : Fin 128) :
    Cert.KernelIdeal.Gen.k1_pay1 v0 v3 v6 v9 v11 v13 v21 (ix2 p q)
      = Cert.DenseStep.elt (N := 2000) (K := 128) (M := 128) v0 v3 v6 v9 v11 v13 v21 p q := by
  unfold Cert.KernelIdeal.Gen.k1_pay1 Cert.DenseStep.elt Cert.DenseStep.proj
  simp only [shapeCast_self]
  refine (maximumf_apply _ _ _).trans (congrArg₂ max ?_ Ideal.ofBits_zero_f32)
  refine (addf_apply _ _ _).trans (congrArg₂ (· + ·) ?_ (bias_apply v21 p q))
  refine (addf_apply _ _ _).trans (congrArg₂ (· + ·) ?_ (matmul_zero_apply _ _ p q))
  exact (subf_apply _ _ _).trans (congrArg₂ (· - ·) (matmul_zero_apply _ _ p q) (matmul_zero_apply _ _ p q))

end Cert.Pay1

end
-- ==== Proof.Region1.lean ====
/-
  Region 1's output array, as one function of the arrays the region finds.

  Region 1 runs its body at 25 grid points. At point `t` the body sees rows `2000 t, …, 2000 t + 1999` of three arrays of
  50000 rows and 128 channels (the two aggregates and the features of the second layer), the three 128 × 128 weight arrays and the
  bias whole, and writes rows `2000 t, …, 2000 t + 1999` of the 50000 × 128 output. The body's value at row `p` and column
  `q` of its block is the dense step's element of the seven blocks; that element uses only row `p` of the three row
  blocks, which is row `2000 t + p` of the whole arrays; so point `t` writes rows `2000 t, …` of the dense step of the
  whole arrays. Row `r` of the output lies in the block of point `r / 2000`, so the 25 blocks cover the output, and the
  output array after the region is the dense step of the arrays the region found.
-/
import proofs.«180355_j26706106646645_1_alg».proof.Proof.Gen.KernelIdeal.Frame
import proofs.«180355_j26706106646645_1_alg».proof.Proof.Pay1
import proofs.«180355_j26706106646645_1_alg».proof.Proof.DenseRows
import Idealize.ShloMosaic.Lib.Pipeline.Value
import Idealize.ShloMosaic.Lib.ValueIdx

noncomputable section

namespace Cert.Region1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The block index of every window at every one of the 25 points: the three row-blocked inputs and the output are at
    block row `t` and column block 0; the weights and the bias are at block 0 on every axis. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- The dense step of the seven arrays region 1 finds. -/
abbrev denseOf (c : Dev nD) : S50000x128.Idx → EReal :=
  Cert.DenseStep.dense (N := 50000) (K := 128) (M := 128) (V c main_v44) (V c main_v50) (V c main_v31) (V c main_arg9) (V c main_arg10) (V c main_v51) (V c main_v52)

/-- Window 0's block at point `t` is rows `2000 t, …, 2000 t + 1999` of the first aggregate. -/
theorem rows_aggRe (c : Dev nD) (t : Fin cfg1.N) (p : Fin 2000) (r : Fin 50000) (hr : r.val = 2000 * t.val + p.val) (k : Fin 128) :
    (iblk1 V c 0 t : Vec Ideal S2000x128 .f32) (ix2 p k) = (V c main_v44 : Vec Ideal S50000x128 .f32) (ix2 r k) := by
  obtain ⟨e0, e1, -⟩ := blockIndex t
  unfold iblk1
  show V c main_v44 (((cfg1.win 0).blk t).view.emb (ix2 p k)) = V c main_v44 (ix2 r k)
  congr 1
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- Window 1's block at point `t` is rows `2000 t, …, 2000 t + 1999` of the second aggregate. -/
theorem rows_aggIm (c : Dev nD) (t : Fin cfg1.N) (p : Fin 2000) (r : Fin 50000) (hr : r.val = 2000 * t.val + p.val) (k : Fin 128) :
    (iblk1 V c 1 t : Vec Ideal S2000x128 .f32) (ix2 p k) = (V c main_v50 : Vec Ideal S50000x128 .f32) (ix2 r k) := by
  obtain ⟨-, -, e0, e1, -⟩ := blockIndex t
  unfold iblk1
  show V c main_v50 (((cfg1.win 1).blk t).view.emb (ix2 p k)) = V c main_v50 (ix2 r k)
  congr 1
  funext a
  apply Fin.ext
  match a with
  | ⟨0, _⟩ => show win1_1.index t (0 : Fin 2) * 2000 + 1 * p.val = r.val; rw [e0, hr]; omega
  | ⟨1, _⟩ => show win1_1.index t (1 : Fin 2) * 128 + 1 * k.val = k.val; rw [e1]; omega

/-- Window 2's block at point `t` is rows `2000 t, …, 2000 t + 1999` of the features. -/
theorem rows_feat (c : Dev nD) (t : Fin cfg1.N) (p : Fin 2000) (r : Fin 50000) (hr : r.val = 2000 * t.val + p.val) (k : Fin 128) :
    (iblk1 V c 2 t : Vec Ideal S2000x128 .f32) (ix2 p k) = (V c main_v31 : Vec Ideal S50000x128 .f32) (ix2 r k) := by
  obtain ⟨-, -, -, -, e0, e1, -⟩ := blockIndex t
  unfold iblk1
  show V c main_v31 (((cfg1.win 2).blk t).view.emb (ix2 p k)) = V c main_v31 (ix2 r k)
  congr 1
  funext a
  apply Fin.ext
  match a with
  | ⟨0, _⟩ => show win1_2.index t (0 : Fin 2) * 2000 + 1 * p.val = r.val; rw [e0, hr]; omega
  | ⟨1, _⟩ => show win1_2.index t (1 : Fin 2) * 128 + 1 * k.val = k.val; rw [e1]; omega

/-- Window 3 holds the first weight array, whole, at every point. -/
theorem whole_wr (c : Dev nD) (t : Fin cfg1.N) : (iblk1 V c 3 t : Vec Ideal S128x128 .f32) = (V c main_arg9 : Vec Ideal S128x128 .f32) := by
  obtain ⟨-, -, -, -, -, -, e0, e1, -⟩ := blockIndex t
  funext y
  unfold iblk1
  show V c main_arg9 (((cfg1.win 3).blk t).view.emb y) = V c main_arg9 y
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- Window 4 holds the second weight array, whole, at every point. -/
theorem whole_wi (c : Dev nD) (t : Fin cfg1.N) : (iblk1 V c 4 t : Vec Ideal S128x128 .f32) = (V c main_arg10 : Vec Ideal S128x128 .f32) := by
  obtain ⟨-, -, -, -, -, -, -, -, e0, e1, -⟩ := blockIndex t
  funext y
  unfold iblk1
  show V c main_arg10 (((cfg1.win 4).blk t).view.emb y) = V c main_arg10 y
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- Window 5 holds the residual weight array, whole, at every point. -/
theorem whole_lwt (c : Dev nD) (t : Fin cfg1.N) : (iblk1 V c 5 t : Vec Ideal S128x128 .f32) = (V c main_v51 : Vec Ideal S128x128 .f32) := by
  obtain ⟨-, -, -, -, -, -, -, -, -, -, e0, e1, -⟩ := blockIndex t
  funext y
  unfold iblk1
  show V c main_v51 (((cfg1.win 5).blk t).view.emb y) = V c main_v51 y
  congr 1
  funext a
  apply Fin.ext
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- Window 6 holds the bias, whole, at every point. -/
theorem whole_bias (c : Dev nD) (t : Fin cfg1.N) : (iblk1 V c 6 t : Vec Ideal S128 .f32) = (V c main_v52 : Vec Ideal S128 .f32) := by
  obtain ⟨-, -, -, -, -, -, -, -, -, -, -, -, e0, -⟩ := blockIndex t
  funext y
  unfold iblk1
  show V c main_v52 (((cfg1.win 6).blk t).view.emb y) = V c main_v52 y
  congr 1
  funext a
  apply Fin.ext
  match a with
  | ⟨0, _⟩ => show win1_6.index t (0 : Fin 1) * 128 + 1 * (y 0).val = (y 0).val; rw [e0]; omega

/-- One element of what a point writes: the body's value at `j`, of seven blocks whose rows are rows of the whole
    arrays, is the dense step of the whole arrays at the array index `i` that `j` sits at. -/
theorem written_elt (x0 x1 x2 : Vec Ideal S2000x128 .f32) (x3 x4 x5 : Vec Ideal S128x128 .f32) (x6 : Vec Ideal S128 .f32)
    (ar ai x : Vec Ideal S50000x128 .f32) (wr wi lwt : Vec Ideal S128x128 .f32) (b : Vec Ideal S128 .f32)
    (j : S2000x128.Idx) (i : S50000x128.Idx) (p : Fin 2000) (q : Fin 128) (r : Fin 50000)
    (hp : (j 0).val = p.val) (hq : (j 1).val = q.val) (hr : (i 0).val = r.val) (hq' : (i 1).val = q.val)
    (h0 : ∀ k : Fin 128, x0 (ix2 p k) = ar (ix2 r k)) (h1 : ∀ k : Fin 128, x1 (ix2 p k) = ai (ix2 r k))
    (h2 : ∀ k : Fin 128, x2 (ix2 p k) = x (ix2 r k)) (h3 : x3 = wr) (h4 : x4 = wi) (h5 : x5 = lwt) (h6 : x6 = b) :
    k1_pay1 x0 x1 x2 x3 x4 x5 x6 j = Cert.DenseStep.dense (N := 50000) (K := 128) (M := 128) ar ai x wr wi lwt b i := by
  subst h3 h4 h5 h6
  obtain rfl : j = ix2 p q := funext fun a => Fin.ext (by match a with | ⟨0, _⟩ => exact hp | ⟨1, _⟩ => exact hq)
  obtain rfl : i = ix2 r q := funext fun a => Fin.ext (by match a with | ⟨0, _⟩ => exact hr | ⟨1, _⟩ => exact hq')
  exact (Cert.Pay1.pay1_apply x0 x1 x2 x3 x4 x5 x6 p q).trans
    (Cert.DenseRows.elt_rows x0 x1 x2 ar ai x x3 x4 x5 x6 p r q h0 h1 h2)

/-- What point `t` writes back is block `t` of the dense step of the whole arrays. -/
theorem written_eq (c : Dev nD) (t : Fin cfg1.N) :
    (dat1 V c).flushed 7 t = ((cfg1.win 7).blk t).view.read (Elt Ideal) (denseOf V c) := by
  show (cfg1.win 7).cut (grid1.coords t) ((dat1 V c).after 7 t) = _
  rw [after1_7]
  unfold out1_7
  rw [View.canon_unit_zero zeros2]
  simp only [View.ld_unit_zero (S := S2000x128) zeros2, View.ld_unit_zero (S := S128x128) zeros2, View.ld_unit_zero (S := S128) zeros1]
  funext j
  obtain ⟨-, -, -, -, -, -, -, -, -, -, -, -, -, e0, e1⟩ := blockIndex t
  have ht : t.val < 25 := lt_of_lt_of_eq t.isLt N_1
  have hj0 : (j 0).val < 2000 := (j 0).isLt
  have hj1 : (j 1).val < 128 := (j 1).isLt
  show k1_pay1 (iblk1 V c 0 t) (iblk1 V c 1 t) (iblk1 V c 2 t) (iblk1 V c 3 t) (iblk1 V c 4 t) (iblk1 V c 5 t) (iblk1 V c 6 t) j
    = denseOf V c (((cfg1.win 7).blk t).view.emb j)
  refine written_elt (iblk1 V c 0 t) (iblk1 V c 1 t) (iblk1 V c 2 t) (iblk1 V c 3 t) (iblk1 V c 4 t) (iblk1 V c 5 t) (iblk1 V c 6 t)
    (V c main_v44) (V c main_v50) (V c main_v31) (V c main_arg9) (V c main_arg10) (V c main_v51) (V c main_v52)
    j (((cfg1.win 7).blk t).view.emb j) ⟨(j 0).val, hj0⟩ ⟨(j 1).val, hj1⟩ ⟨2000 * t.val + (j 0).val, by omega⟩
    rfl rfl ?_ ?_ (fun k => rows_aggRe V c t _ _ rfl k) (fun k => rows_aggIm V c t _ _ rfl k) (fun k => rows_feat V c t _ _ rfl k)
    (whole_wr V c t) (whole_wi V c t) (whole_lwt V c t) (whole_bias V c t)
  · show win1_7.index t (0 : Fin 2) * 2000 + 1 * (j 0).val = 2000 * t.val + (j 0).val
    rw [e0]; omega
  · show win1_7.index t (1 : Fin 2) * 128 + 1 * (j 1).val = (j 1).val
    rw [e1]; omega

/-- An index of the output array is in point `t`'s block iff each coordinate is in the block's range on its axis. -/
theorem mem_block (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v53).slice (win1_7.rect t)).set ↔ _
  rw [View.set_slice_whole, Rect.mem_set_unit]
  exact Iff.rfl

/-- Row `r` of the output array is in the block of point `r / 2000`: the 25 blocks cover the array. -/
theorem rows_covered (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 25 := N_1
  have hlt : (i 0).val / 2000 < cfg1.N := by rw [hN]; omega
  obtain ⟨-, -, -, -, -, -, -, -, -, -, -, -, -, e0, e1⟩ := blockIndex ⟨(i 0).val / 2000, hlt⟩
  refine ⟨⟨(i 0).val / 2000, hlt⟩, flush1_7 _, ?_⟩
  rw [mem_block]
  intro a
  match a with
  | ⟨0, _⟩ =>
    show win1_7.index ⟨(i 0).val / 2000, hlt⟩ (0 : Fin 2) * 2000 ≤ (i 0).val ∧ (i 0).val < win1_7.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_7.index ⟨(i 0).val / 2000, hlt⟩ (1 : Fin 2) * 128 ≤ (i 1).val ∧ (i 1).val < win1_7.index ⟨(i 0).val / 2000, hlt⟩ (1 : Fin 2) * 128 + 128
    rw [e1]; omega

/-- Region 1's output array after the region is the dense step of the seven arrays the region found. -/
theorem region1_array (c : Dev nD) :
    (dat1 V c).arrAt 7 cfg1.N
      = Cert.DenseStep.dense (N := 50000) (K := 128) (M := 128) (V c main_v44) (V c main_v50) (V c main_v31) (V c main_arg9) (V c main_arg10) (V c main_v51) (V c main_v52) :=
  (dat1 V c).arrAt_eq_of_cover 7 (denseOf V c) (fun t _ => written_eq V c t) rows_covered

end Cert.Region1

end
-- ==== Proof.Pay2.lean ====
/-
  Region 2's body at one element.

  The body of region 2 takes three blocks of 2000 rows and 128 channels (the two aggregates' blocks and the features'
  block), three 128 × 32 weight arrays and a bias of length 32. It multiplies each block with its weight array into a
  zero accumulator, subtracts the second product from the first, adds the third, adds the bias row broadcast over the
  2000 rows and takes the maximum with zero. Narrowing a value to a shorter float format, and recasting an array to
  its own shape, change nothing at the ideal values. A product into a zero accumulator read at row `p` and column `q`
  is the contraction `∑ k, l (p, k) * r (k, q)` over the 128 channels: the product's one contracted axis is identified
  with `Fin 128` and the two operand indices at `(p, q)` and `k` are `(p, k)` and `(k, q)`. So the element at `(p, q)` is
  the dense step's element at 2000 rows.
-/
import proofs.«180355_j26706106646645_1_alg».proof.Proof.Gen.KernelIdeal.Skeleton
import proofs.«180355_j26706106646645_1_alg».proof.Proof.DenseStep
import Idealize.ShloMosaic.Lib.Pipeline.Value
import Idealize.ShloMosaic.Lib.ValueIdx
import Idealize.ShloMosaic.Lib.ValueLayout
import Idealize.ShloMosaic.PureOps.Ideal.Laws

noncomputable section

namespace Cert.Pay2

open Idealize.ShloMosaic Idealize.ShloMosaic.ValueIdx Cert.KernelIdeal Cert.KernelIdeal.Gen

/-- Row coordinate of the first operand's index: the output's row. -/
theorem lhs_row (i : S2000x32.Idx) (kk : dot_S2000x128_S128x32_S2000x32_1_0_0_1_n_n.contr.Idx) :
    (dot_S2000x128_S128x32_S2000x32_1_0_0_1_n_n.lhsIdx i kk 0).val = (i 0).val := by
  unfold DotDims.lhsIdx
  rw [dif_neg (show ¬(0 : Fin S2000x128.rank) ∈ dot_S2000x128_S128x32_S2000x32_1_0_0_1_n_n.lhsBatch by decide),
    dif_pos (show (0 : Fin S2000x128.rank) ∈ dot_S2000x128_S128x32_S2000x32_1_0_0_1_n_n.lhsNonContracting by decide)]
  rfl
/-- Its channel coordinate: the contraction coordinate. -/
theorem lhs_chan (i : S2000x32.Idx) (kk : dot_S2000x128_S128x32_S2000x32_1_0_0_1_n_n.contr.Idx) :
    (dot_S2000x128_S128x32_S2000x32_1_0_0_1_n_n.lhsIdx i kk 1).val = (kk ⟨0, by decide⟩).val :=
  dot_S2000x128_S128x32_S2000x32_1_0_0_1_n_n.lhsIdx_val_of_single rfl i kk
/-- Row coordinate of the second operand's index: the contraction coordinate. -/
theorem rhs_chan (i : S2000x32.Idx) (kk : dot_S2000x128_S128x32_S2000x32_1_0_0_1_n_n.contr.Idx) :
    (dot_S2000x128_S128x32_S2000x32_1_0_0_1_n_n.rhsIdx i kk 0).val = (kk ⟨0, by decide⟩).val :=
  dot_S2000x128_S128x32_S2000x32_1_0_0_1_n_n.rhsIdx_val_of_single rfl i kk
/-- Its column coordinate: the output's column. -/
theorem rhs_col (i : S2000x32.Idx) (kk : dot_S2000x128_S128x32_S2000x32_1_0_0_1_n_n.contr.Idx) :
    (dot_S2000x128_S128x32_S2000x32_1_0_0_1_n_n.rhsIdx i kk 1).val = (i 1).val := by
  unfold DotDims.rhsIdx
  rw [dif_neg (show ¬(1 : Fin S128x32.rank) ∈ dot_S2000x128_S128x32_S2000x32_1_0_0_1_n_n.rhsBatch by decide),
    dif_pos (show (1 : Fin S128x32.rank) ∈ dot_S2000x128_S128x32_S2000x32_1_0_0_1_n_n.rhsNonContracting by decide)]
  rfl

/-- The first operand's index of the block product at output `(p, q)` and contraction coordinate `k` is `(p, k)`. -/
theorem lhsIdx_eq (p : Fin 2000) (q : Fin 32) (k : Fin 128) :
    dot_S2000x128_S128x32_S2000x32_1_0_0_1_n_n.lhsIdx (ix2 p q)
      ((contrEquiv1 dot_S2000x128_S128x32_S2000x32_1_0_0_1_n_n 128 rfl rfl).symm k) = ix2 p k := by
  have hk := contrEquiv1_symm_val dot_S2000x128_S128x32_S2000x32_1_0_0_1_n_n 128 rfl rfl k
  refine funext fun a => Fin.ext ?_
  match a with
  | ⟨0, _⟩ => exact lhs_row _ _
  | ⟨1, _⟩ => exact (lhs_chan _ _).trans hk

/-- The second operand's index there is `(k, q)`. -/
theorem rhsIdx_eq (p : Fin 2000) (q : Fin 32) (k : Fin 128) :
    dot_S2000x128_S128x32_S2000x32_1_0_0_1_n_n.rhsIdx (ix2 p q)
      ((contrEquiv1 dot_S2000x128_S128x32_S2000x32_1_0_0_1_n_n 128 rfl rfl).symm k) = ix2 k q := by
  have hk := contrEquiv1_symm_val dot_S2000x128_S128x32_S2000x32_1_0_0_1_n_n 128 rfl rfl k
  refine funext fun a => Fin.ext ?_
  match a with
  | ⟨0, _⟩ => exact (rhs_chan _ _).trans hk
  | ⟨1, _⟩ => exact rhs_col _ _

/-- A block product into the zero accumulator, read at `(p, q)`, is the contraction over the 128 channels. -/
theorem matmul_zero_apply (l : FVec Ideal S2000x128 .bf16) (r : FVec Ideal S128x32 .bf16) (p : Fin 2000) (q : Fin 32) :
    matmul dot_S2000x128_S128x32_S2000x32_1_0_0_1_n_n none l r (constant S2000x32 .f32 0x00000000#32) (ix2 p q)
      = ∑ k : Fin 128, l (ix2 p k) * r (ix2 k q) := by
  refine (Ideal.matmul_constant_zero_apply dot_S2000x128_S128x32_S2000x32_1_0_0_1_n_n none l r (ix2 p q)).trans ?_
  rw [← Equiv.sum_comp (contrEquiv1 dot_S2000x128_S128x32_S2000x32_1_0_0_1_n_n 128 rfl rfl).symm]
  refine Finset.sum_congr rfl fun k _ => ?_
  rw [lhsIdx_eq, rhsIdx_eq]

/-- The bias row broadcast over the block's rows, read at `(p, q)`, is the bias at `q`. -/
theorem bias_apply (b : Vec Ideal S32 .f32) (p : Fin 2000) (q : Fin 32) :
    broadcastTo S2000x32 (shapeCast S1x32 b shapeCasts_S32_S1x32) broadcasts_S1x32_S2000x32 (ix2 p q) = b (ix1 q) :=
  (broadcastTo_1b_ab_apply _ broadcasts_S1x32_S2000x32 p q).trans (shapeCast_a_1a_apply b shapeCasts_S32_S1x32 0 q)

/-- The body's value at row `p` and column `q` of its block is the dense step's element at 2000 rows, 128 channels in
    and 32 out, of the seven arrays it read. -/
theorem pay2_apply (v0 v3 v6 : Vec Ideal S2000x128 .f32) (v9 v11 v13 : Vec Ideal S128x32 .f32) (v21 : Vec Ideal S32 .f32)
    (p : Fin 2000) (q : Fin 32) :
    Cert.KernelIdeal.Gen.k2_pay1 v0 v3 v6 v9 v11 v13 v21 (ix2 p q)
      = Cert.DenseStep.elt (N := 2000) (K := 128) (M := 32) v0 v3 v6 v9 v11 v13 v21 p q := by
  unfold Cert.KernelIdeal.Gen.k2_pay1 Cert.DenseStep.elt Cert.DenseStep.proj
  simp only [shapeCast_self]
  refine (maximumf_apply _ _ _).trans (congrArg₂ max ?_ Ideal.ofBits_zero_f32)
  refine (addf_apply _ _ _).trans (congrArg₂ (· + ·) ?_ (bias_apply v21 p q))
  refine (addf_apply _ _ _).trans (congrArg₂ (· + ·) ?_ (matmul_zero_apply _ _ p q))
  exact (subf_apply _ _ _).trans (congrArg₂ (· - ·) (matmul_zero_apply _ _ p q) (matmul_zero_apply _ _ p q))

end Cert.Pay2

end
-- ==== Proof.Region2.lean ====
/-
  Region 2's output array, as one function of the arrays the region finds.

  Region 2 runs its body at 25 grid points. At point `t` the body sees rows `2000 t, …, 2000 t + 1999` of three arrays of
  50000 rows and 128 channels (the two aggregates and the features of the third layer), the three 128 × 32 weight arrays and the
  bias whole, and writes rows `2000 t, …, 2000 t + 1999` of the 50000 × 32 output. The body's value at row `p` and column
  `q` of its block is the dense step's element of the seven blocks; that element uses only row `p` of the three row
  blocks, which is row `2000 t + p` of the whole arrays; so point `t` writes rows `2000 t, …` of the dense step of the
  whole arrays. Row `r` of the output lies in the block of point `r / 2000`, so the 25 blocks cover the output, and the
  output array after the region is the dense step of the arrays the region found.
-/
import proofs.«180355_j26706106646645_1_alg».proof.Proof.Gen.KernelIdeal.Frame
import proofs.«180355_j26706106646645_1_alg».proof.Proof.Pay2
import proofs.«180355_j26706106646645_1_alg».proof.Proof.DenseRows
import Idealize.ShloMosaic.Lib.Pipeline.Value
import Idealize.ShloMosaic.Lib.ValueIdx

noncomputable section

namespace Cert.Region2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The block index of every window at every one of the 25 points: the three row-blocked inputs and the output are at
    block row `t` and column block 0; the weights and the bias are at block 0 on every axis. -/
theorem blockIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

/-- The dense step of the seven arrays region 2 finds. -/
abbrev denseOf (c : Dev nD) : S50000x32.Idx → EReal :=
  Cert.DenseStep.dense (N := 50000) (K := 128) (M := 32) (V c main_v66) (V c main_v72) (V c main_v53) (V c main_arg14) (V c main_arg15) (V c main_v73) (V c main_v74)

/-- Window 0's block at point `t` is rows `2000 t, …, 2000 t + 1999` of the first aggregate. -/
theorem rows_aggRe (c : Dev nD) (t : Fin cfg2.N) (p : Fin 2000) (r : Fin 50000) (hr : r.val = 2000 * t.val + p.val) (k : Fin 128) :
    (iblk2 V c 0 t : Vec Ideal S2000x128 .f32) (ix2 p k) = (V c main_v66 : Vec Ideal S50000x128 .f32) (ix2 r k) := by
  obtain ⟨e0, e1, -⟩ := blockIndex t
  unfold iblk2
  show V c main_v66 (((cfg2.win 0).blk t).view.emb (ix2 p k)) = V c main_v66 (ix2 r k)
  congr 1
  funext a
  apply Fin.ext
  match a with
  | ⟨0, _⟩ => show win2_0.index t (0 : Fin 2) * 2000 + 1 * p.val = r.val; rw [e0, hr]; omega
  | ⟨1, _⟩ => show win2_0.index t (1 : Fin 2) * 128 + 1 * k.val = k.val; rw [e1]; omega

/-- Window 1's block at point `t` is rows `2000 t, …, 2000 t + 1999` of the second aggregate. -/
theorem rows_aggIm (c : Dev nD) (t : Fin cfg2.N) (p : Fin 2000) (r : Fin 50000) (hr : r.val = 2000 * t.val + p.val) (k : Fin 128) :
    (iblk2 V c 1 t : Vec Ideal S2000x128 .f32) (ix2 p k) = (V c main_v72 : Vec Ideal S50000x128 .f32) (ix2 r k) := by
  obtain ⟨-, -, e0, e1, -⟩ := blockIndex t
  unfold iblk2
  show V c main_v72 (((cfg2.win 1).blk t).view.emb (ix2 p k)) = V c main_v72 (ix2 r k)
  congr 1
  funext a
  apply Fin.ext
  match a with
  | ⟨0, _⟩ => show win2_1.index t (0 : Fin 2) * 2000 + 1 * p.val = r.val; rw [e0, hr]; omega
  | ⟨1, _⟩ => show win2_1.index t (1 : Fin 2) * 128 + 1 * k.val = k.val; rw [e1]; omega

/-- Window 2's block at point `t` is rows `2000 t, …, 2000 t + 1999` of the features. -/
theorem rows_feat (c : Dev nD) (t : Fin cfg2.N) (p : Fin 2000) (r : Fin 50000) (hr : r.val = 2000 * t.val + p.val) (k : Fin 128) :
    (iblk2 V c 2 t : Vec Ideal S2000x128 .f32) (ix2 p k) = (V c main_v53 : Vec Ideal S50000x128 .f32) (ix2 r k) := by
  obtain ⟨-, -, -, -, e0, e1, -⟩ := blockIndex t
  unfold iblk2
  show V c main_v53 (((cfg2.win 2).blk t).view.emb (ix2 p k)) = V c main_v53 (ix2 r k)
  congr 1
  funext a
  apply Fin.ext
  match a with
  | ⟨0, _⟩ => show win2_2.index t (0 : Fin 2) * 2000 + 1 * p.val = r.val; rw [e0, hr]; omega
  | ⟨1, _⟩ => show win2_2.index t (1 : Fin 2) * 128 + 1 * k.val = k.val; rw [e1]; omega

/-- Window 3 holds the first weight array, whole, at every point. -/
theorem whole_wr (c : Dev nD) (t : Fin cfg2.N) : (iblk2 V c 3 t : Vec Ideal S128x32 .f32) = (V c main_arg14 : Vec Ideal S128x32 .f32) := by
  obtain ⟨-, -, -, -, -, -, e0, e1, -⟩ := blockIndex t
  funext y
  unfold iblk2
  show V c main_arg14 (((cfg2.win 3).blk t).view.emb y) = V c main_arg14 y
  congr 1
  funext a
  apply Fin.ext
  match a with
  | ⟨0, _⟩ => show win2_3.index t (0 : Fin 2) * 128 + 1 * (y 0).val = (y 0).val; rw [e0]; omega
  | ⟨1, _⟩ => show win2_3.index t (1 : Fin 2) * 32 + 1 * (y 1).val = (y 1).val; rw [e1]; omega

/-- Window 4 holds the second weight array, whole, at every point. -/
theorem whole_wi (c : Dev nD) (t : Fin cfg2.N) : (iblk2 V c 4 t : Vec Ideal S128x32 .f32) = (V c main_arg15 : Vec Ideal S128x32 .f32) := by
  obtain ⟨-, -, -, -, -, -, -, -, e0, e1, -⟩ := blockIndex t
  funext y
  unfold iblk2
  show V c main_arg15 (((cfg2.win 4).blk t).view.emb y) = V c main_arg15 y
  congr 1
  funext a
  apply Fin.ext
  match a with
  | ⟨0, _⟩ => show win2_4.index t (0 : Fin 2) * 128 + 1 * (y 0).val = (y 0).val; rw [e0]; omega
  | ⟨1, _⟩ => show win2_4.index t (1 : Fin 2) * 32 + 1 * (y 1).val = (y 1).val; rw [e1]; omega

/-- Window 5 holds the residual weight array, whole, at every point. -/
theorem whole_lwt (c : Dev nD) (t : Fin cfg2.N) : (iblk2 V c 5 t : Vec Ideal S128x32 .f32) = (V c main_v73 : Vec Ideal S128x32 .f32) := by
  obtain ⟨-, -, -, -, -, -, -, -, -, -, e0, e1, -⟩ := blockIndex t
  funext y
  unfold iblk2
  show V c main_v73 (((cfg2.win 5).blk t).view.emb y) = V c main_v73 y
  congr 1
  funext a
  apply Fin.ext
  match a with
  | ⟨0, _⟩ => show win2_5.index t (0 : Fin 2) * 128 + 1 * (y 0).val = (y 0).val; rw [e0]; omega
  | ⟨1, _⟩ => show win2_5.index t (1 : Fin 2) * 32 + 1 * (y 1).val = (y 1).val; rw [e1]; omega

/-- Window 6 holds the bias, whole, at every point. -/
theorem whole_bias (c : Dev nD) (t : Fin cfg2.N) : (iblk2 V c 6 t : Vec Ideal S32 .f32) = (V c main_v74 : Vec Ideal S32 .f32) := by
  obtain ⟨-, -, -, -, -, -, -, -, -, -, -, -, e0, -⟩ := blockIndex t
  funext y
  unfold iblk2
  show V c main_v74 (((cfg2.win 6).blk t).view.emb y) = V c main_v74 y
  congr 1
  funext a
  apply Fin.ext
  match a with
  | ⟨0, _⟩ => show win2_6.index t (0 : Fin 1) * 32 + 1 * (y 0).val = (y 0).val; rw [e0]; omega

/-- One element of what a point writes: the body's value at `j`, of seven blocks whose rows are rows of the whole
    arrays, is the dense step of the whole arrays at the array index `i` that `j` sits at. -/
theorem written_elt (x0 x1 x2 : Vec Ideal S2000x128 .f32) (x3 x4 x5 : Vec Ideal S128x32 .f32) (x6 : Vec Ideal S32 .f32)
    (ar ai x : Vec Ideal S50000x128 .f32) (wr wi lwt : Vec Ideal S128x32 .f32) (b : Vec Ideal S32 .f32)
    (j : S2000x32.Idx) (i : S50000x32.Idx) (p : Fin 2000) (q : Fin 32) (r : Fin 50000)
    (hp : (j 0).val = p.val) (hq : (j 1).val = q.val) (hr : (i 0).val = r.val) (hq' : (i 1).val = q.val)
    (h0 : ∀ k : Fin 128, x0 (ix2 p k) = ar (ix2 r k)) (h1 : ∀ k : Fin 128, x1 (ix2 p k) = ai (ix2 r k))
    (h2 : ∀ k : Fin 128, x2 (ix2 p k) = x (ix2 r k)) (h3 : x3 = wr) (h4 : x4 = wi) (h5 : x5 = lwt) (h6 : x6 = b) :
    k2_pay1 x0 x1 x2 x3 x4 x5 x6 j = Cert.DenseStep.dense (N := 50000) (K := 128) (M := 32) ar ai x wr wi lwt b i := by
  subst h3 h4 h5 h6
  obtain rfl : j = ix2 p q := funext fun a => Fin.ext (by match a with | ⟨0, _⟩ => exact hp | ⟨1, _⟩ => exact hq)
  obtain rfl : i = ix2 r q := funext fun a => Fin.ext (by match a with | ⟨0, _⟩ => exact hr | ⟨1, _⟩ => exact hq')
  exact (Cert.Pay2.pay2_apply x0 x1 x2 x3 x4 x5 x6 p q).trans
    (Cert.DenseRows.elt_rows x0 x1 x2 ar ai x x3 x4 x5 x6 p r q h0 h1 h2)

/-- What point `t` writes back is block `t` of the dense step of the whole arrays. -/
theorem written_eq (c : Dev nD) (t : Fin cfg2.N) :
    (dat2 V c).flushed 7 t = ((cfg2.win 7).blk t).view.read (Elt Ideal) (denseOf V c) := by
  show (cfg2.win 7).cut (grid2.coords t) ((dat2 V c).after 7 t) = _
  rw [after2_7]
  unfold out2_7
  rw [View.canon_unit_zero zeros2]
  simp only [View.ld_unit_zero (S := S2000x128) zeros2, View.ld_unit_zero (S := S128x32) zeros2, View.ld_unit_zero (S := S32) zeros1]
  funext j
  obtain ⟨-, -, -, -, -, -, -, -, -, -, -, -, -, e0, e1⟩ := blockIndex t
  have ht : t.val < 25 := lt_of_lt_of_eq t.isLt N_2
  have hj0 : (j 0).val < 2000 := (j 0).isLt
  have hj1 : (j 1).val < 32 := (j 1).isLt
  show k2_pay1 (iblk2 V c 0 t) (iblk2 V c 1 t) (iblk2 V c 2 t) (iblk2 V c 3 t) (iblk2 V c 4 t) (iblk2 V c 5 t) (iblk2 V c 6 t) j
    = denseOf V c (((cfg2.win 7).blk t).view.emb j)
  refine written_elt (iblk2 V c 0 t) (iblk2 V c 1 t) (iblk2 V c 2 t) (iblk2 V c 3 t) (iblk2 V c 4 t) (iblk2 V c 5 t) (iblk2 V c 6 t)
    (V c main_v66) (V c main_v72) (V c main_v53) (V c main_arg14) (V c main_arg15) (V c main_v73) (V c main_v74)
    j (((cfg2.win 7).blk t).view.emb j) ⟨(j 0).val, hj0⟩ ⟨(j 1).val, hj1⟩ ⟨2000 * t.val + (j 0).val, by omega⟩
    rfl rfl ?_ ?_ (fun k => rows_aggRe V c t _ _ rfl k) (fun k => rows_aggIm V c t _ _ rfl k) (fun k => rows_feat V c t _ _ rfl k)
    (whole_wr V c t) (whole_wi V c t) (whole_lwt V c t) (whole_bias V c t)
  · show win2_7.index t (0 : Fin 2) * 2000 + 1 * (j 0).val = 2000 * t.val + (j 0).val
    rw [e0]; omega
  · show win2_7.index t (1 : Fin 2) * 32 + 1 * (j 1).val = (j 1).val
    rw [e1]; omega

/-- An index of the output array is in point `t`'s block iff each coordinate is in the block's range on its axis. -/
theorem mem_block (t : Fin cfg2.N) (i : S50000x32.Idx) :
    i ∈ ((cfg2.win 7).blk t).view.set ↔ ∀ a : Fin 2, win2_7.index t a * S2000x32.size a ≤ (i a).val ∧ (i a).val < win2_7.index t a * S2000x32.size a + S2000x32.size a := by
  show i ∈ ((View.whole main_v75).slice (win2_7.rect t)).set ↔ _
  rw [View.set_slice_whole, Rect.mem_set_unit]
  exact Iff.rfl

/-- Row `r` of the output array is in the block of point `r / 2000`: the 25 blocks cover the array. -/
theorem rows_covered (i : S50000x32.Idx) : ∃ t : Fin cfg2.N, (cfg2.win 7).flush t = true ∧ i ∈ ((cfg2.win 7).blk t).view.set := by
  have hi0 : (i 0).val < 50000 := (i 0).isLt
  have hi1 : (i 1).val < 32 := (i 1).isLt
  have hN : cfg2.N = 25 := N_2
  have hlt : (i 0).val / 2000 < cfg2.N := by rw [hN]; omega
  obtain ⟨-, -, -, -, -, -, -, -, -, -, -, -, -, e0, e1⟩ := blockIndex ⟨(i 0).val / 2000, hlt⟩
  refine ⟨⟨(i 0).val / 2000, hlt⟩, flush2_7 _, ?_⟩
  rw [mem_block]
  intro a
  match a with
  | ⟨0, _⟩ =>
    show win2_7.index ⟨(i 0).val / 2000, hlt⟩ (0 : Fin 2) * 2000 ≤ (i 0).val ∧ (i 0).val < win2_7.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win2_7.index ⟨(i 0).val / 2000, hlt⟩ (1 : Fin 2) * 32 ≤ (i 1).val ∧ (i 1).val < win2_7.index ⟨(i 0).val / 2000, hlt⟩ (1 : Fin 2) * 32 + 32
    rw [e1]; omega

/-- Region 2's output array after the region is the dense step of the seven arrays the region found. -/
theorem region2_array (c : Dev nD) :
    (dat2 V c).arrAt 7 cfg2.N
      = Cert.DenseStep.dense (N := 50000) (K := 128) (M := 32) (V c main_v66) (V c main_v72) (V c main_v53) (V c main_arg14) (V c main_arg15) (V c main_v73) (V c main_v74) :=
  (dat2 V c).arrAt_eq_of_cover 7 (denseOf V c) (fun t _ => written_eq V c t) rows_covered

end Cert.Region2

end
-- ==== Proof.Fold.lean ====
/-
  The idealized kernel's result is the network of its arguments.

  Region `r`'s output array is the dense step of the region's seven operand arrays as the region finds them; the
  operands are the two aggregates, the previous layer's output, the two filters, the transposed residual weight and the
  summed bias, each read through the boundary contents. Composing the three regions gives the three layers in sequence.
-/
import proofs.«180355_j26706106646645_1_alg».proof.Proof.FoldReads
import proofs.«180355_j26706106646645_1_alg».proof.Proof.Region0
import proofs.«180355_j26706106646645_1_alg».proof.Proof.Region1
import proofs.«180355_j26706106646645_1_alg».proof.Proof.Region2

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Region 0 leaves layer 0's output: the dense step of the two aggregates of `x`, `x`, and layer 0's weights. -/
theorem out0 : W2 m ρ c (Proc.devRef .tc main_v31) = Cert.Gnn.layer0 (m ((c : Thread nD τ).loc main_arg0)) (Cert.Gnn.srcOf (m ((c : Thread nD τ).loc main_arg1))) (Cert.Gnn.dstOf (m ((c : Thread nD τ).loc main_arg1))) (Cert.Gnn.crOf (m ((c : Thread nD τ).loc main_arg2)) (m ((c : Thread nD τ).loc main_arg3))) (Cert.Gnn.ciOf (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8)) := by
  refine (W2_arr m ρ c 7).trans ((Cert.Region0.region0_array (V1 m ρ) c).trans ?_)
  show Cert.DenseStep.dense (W1 m ρ c (Proc.devRef .tc main_v22)) (W1 m ρ c (Proc.devRef .tc main_v28)) (W1 m ρ c (Proc.devRef .tc main_arg0)) (W1 m ρ c (Proc.devRef .tc main_arg4)) (W1 m ρ c (Proc.devRef .tc main_arg5)) (W1 m ρ c (Proc.devRef .tc main_v29)) (W1 m ρ c (Proc.devRef .tc main_v30)) = _
  rw [W1_v22 m ρ c, W1_v28 m ρ c, W1_arg0 m ρ c, W1_arg4 m ρ c, W1_arg5 m ρ c, W1_v29 m ρ c, W1_v30 m ρ c]
  rfl

/-- Region 1 leaves layer 1 of what region 0 left. -/
theorem out1 : W4 m ρ c (Proc.devRef .tc main_v53) = Cert.Gnn.layer1 (W2 m ρ c (Proc.devRef .tc main_v31)) (Cert.Gnn.srcOf (m ((c : Thread nD τ).loc main_arg1))) (Cert.Gnn.dstOf (m ((c : Thread nD τ).loc main_arg1))) (Cert.Gnn.crOf (m ((c : Thread nD τ).loc main_arg2)) (m ((c : Thread nD τ).loc main_arg3))) (Cert.Gnn.ciOf (m ((c : Thread nD τ).loc main_arg2)) (m ((c : Thread nD τ).loc main_arg3))) (m ((c : Thread nD τ).loc main_arg9)) (m ((c : Thread nD τ).loc main_arg10)) (m ((c : Thread nD τ).loc main_arg11)) (m ((c : Thread nD τ).loc main_arg12)) (m ((c : Thread nD τ).loc main_arg13)) := by
  refine (W4_arr m ρ c 7).trans ((Cert.Region1.region1_array (V3 m ρ) c).trans ?_)
  show Cert.DenseStep.dense (W3 m ρ c (Proc.devRef .tc main_v44)) (W3 m ρ c (Proc.devRef .tc main_v50)) (W3 m ρ c (Proc.devRef .tc main_v31)) (W3 m ρ c (Proc.devRef .tc main_arg9)) (W3 m ρ c (Proc.devRef .tc main_arg10)) (W3 m ρ c (Proc.devRef .tc main_v51)) (W3 m ρ c (Proc.devRef .tc main_v52)) = _
  rw [W3_v44 m ρ c, W3_v50 m ρ c, W3_v31 m ρ c, W3_arg9 m ρ c, W3_arg10 m ρ c, W3_v51 m ρ c, W3_v52 m ρ c]
  rfl

/-- Region 2 leaves layer 2 of what region 1 left. -/
theorem out2 : W6 m ρ c (Proc.devRef .tc main_v75) = Cert.Gnn.layer2 (W4 m ρ c (Proc.devRef .tc main_v53)) (Cert.Gnn.srcOf (m ((c : Thread nD τ).loc main_arg1))) (Cert.Gnn.dstOf (m ((c : Thread nD τ).loc main_arg1))) (Cert.Gnn.crOf (m ((c : Thread nD τ).loc main_arg2)) (m ((c : Thread nD τ).loc main_arg3))) (Cert.Gnn.ciOf (m ((c : Thread nD τ).loc main_arg2)) (m ((c : Thread nD τ).loc main_arg3))) (m ((c : Thread nD τ).loc main_arg14)) (m ((c : Thread nD τ).loc main_arg15)) (m ((c : Thread nD τ).loc main_arg16)) (m ((c : Thread nD τ).loc main_arg17)) (m ((c : Thread nD τ).loc main_arg18)) := by
  refine (W6_arr m ρ c 7).trans ((Cert.Region2.region2_array (V5 m ρ) c).trans ?_)
  show Cert.DenseStep.dense (W5 m ρ c (Proc.devRef .tc main_v66)) (W5 m ρ c (Proc.devRef .tc main_v72)) (W5 m ρ c (Proc.devRef .tc main_v53)) (W5 m ρ c (Proc.devRef .tc main_arg14)) (W5 m ρ c (Proc.devRef .tc main_arg15)) (W5 m ρ c (Proc.devRef .tc main_v73)) (W5 m ρ c (Proc.devRef .tc main_v74)) = _
  rw [W5_v66 m ρ c, W5_v72 m ρ c, W5_v53 m ρ c, W5_arg14 m ρ c, W5_arg15 m ρ c, W5_v73 m ρ c, W5_v74 m ρ c]
  rfl

/-- The result buffer at the last boundary is the three layers in sequence applied to the launch contents. -/
theorem result : W6 m ρ c (Proc.devRef .tc main_v75) = Cert.Gnn.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  rw [out2 m ρ c, out1 m ρ c, out0 m ρ c]
  rfl

end Cert.KernelIdeal.Fold

end
-- ==== Proof.RefReads.lean ====
/-
  Reading the reference program's stages at a node `p` and a channel `q`: the one generic fact every layer uses.

  A `dot_general` stage contracting the second axis of its left operand with the first axis of its right operand reads,
  at `(p, q)`, the sum over `k` of the left operand at `(p, k)` times the right operand at `(k, q)`: the contraction
  `Cert.DenseStep.proj`. The reading lemma of such a stage states the two operand indices as functions of the output index and
  `k`; `proj_of_reads` takes the two identifications as hypotheses, so each stage supplies them by computing the two
  coordinates.
-/
import proofs.«180355_j26706106646645_1_alg».proof.Proof.DenseStep

noncomputable section

namespace Cert.RefNet

open Idealize.ShloMosaic Idealize.ShloMosaic.ValueIdx

/-- A sum of products read through two index functions that pick row `p` of the left factor and column `q` of the
    right factor is the contraction of the two arrays at `(p, q)`. -/
theorem proj_of_reads {N K M : Nat} (y : FVec Ideal ⟨2, ![N, K]⟩ .f32) (w : FVec Ideal ⟨2, ![K, M]⟩ .f32)
    (p : Fin N) (q : Fin M) (l : Fin K → (⟨2, ![N, K]⟩ : Shape).Idx) (r : Fin K → (⟨2, ![K, M]⟩ : Shape).Idx)
    (hl : ∀ k, l k = ix2 p k) (hr : ∀ k, r k = ix2 k q) :
    (∑ k : Fin K, y (l k) * w (r k)) = Cert.DenseStep.proj y w p q := by
  unfold Cert.DenseStep.proj
  exact Finset.sum_congr rfl fun k _ => by rw [hl k, hr k]

end Cert.RefNet

end
-- ==== Proof.RefLayer0.lean ====
/-
  Layer 0 of the reference program.

  The reference computes, for 75-channel node features `x`: the two aggregates `ar`, `ai` (rows of `x` gathered at the
  edges' sources, scaled by the real resp. imaginary edge coefficient, scatter-added at the destinations), then
  `max ((((ar·wr − ai·wi) + cb) + x·lwᵀ) + lb) 0` with both biases broadcast along the nodes. Read at a node `p` and a
  channel `q` this is `Cert.DenseStep.eltSplit`, which equals the network's element with the summed bias
  (`Cert.DenseStep.eltSplit_eq`: commutativity and associativity of addition only).
-/
import proofs.«180355_j26706106646645_1_alg».proof.Proof.Gen.ReferenceIdeal.Read
import proofs.«180355_j26706106646645_1_alg».proof.Proof.Layers
import proofs.«180355_j26706106646645_1_alg».proof.Proof.RefReads

noncomputable section

namespace Cert.RefNet

open Cert.ReferenceIdeal Cert.ReferenceIdeal.Gen Cert.ReferenceIdeal.Read Idealize.ShloMosaic Idealize.ShloMosaic.ValueIdx
  Idealize.ShloMosaic.TcCoe Idealize.SL.Sem

variable (x0 : (⟨S50000x75, .f32⟩ : BufTy).Contents (Elt Ideal)) (x1 : (⟨S2x600000, .i32⟩ : BufTy).Contents (Elt Ideal))
  (x2 : (⟨S600000, .f32⟩ : BufTy).Contents (Elt Ideal)) (x3 : (⟨S600000x2, .f32⟩ : BufTy).Contents (Elt Ideal))
  (x4 x5 : (⟨S75x128, .f32⟩ : BufTy).Contents (Elt Ideal)) (x6 : (⟨S128, .f32⟩ : BufTy).Contents (Elt Ideal))
  (x7 : (⟨S128x75, .f32⟩ : BufTy).Contents (Elt Ideal)) (x8 : (⟨S128, .f32⟩ : BufTy).Contents (Elt Ideal))
  (x9 x10 : (⟨S128x128, .f32⟩ : BufTy).Contents (Elt Ideal)) (x11 : (⟨S128, .f32⟩ : BufTy).Contents (Elt Ideal))
  (x12 : (⟨S128x128, .f32⟩ : BufTy).Contents (Elt Ideal)) (x13 : (⟨S128, .f32⟩ : BufTy).Contents (Elt Ideal))
  (x14 x15 : (⟨S128x32, .f32⟩ : BufTy).Contents (Elt Ideal)) (x16 : (⟨S32, .f32⟩ : BufTy).Contents (Elt Ideal))
  (x17 : (⟨S32x128, .f32⟩ : BufTy).Contents (Elt Ideal)) (x18 : (⟨S32, .f32⟩ : BufTy).Contents (Elt Ideal))

/-! ## The two aggregates

Both programs gather the rows `x (src e)`, multiply by the broadcast coefficient and scatter-add into zeros with the
same host operations; the reference only names every intermediate array. Unfolding those names (and nothing else:
the gather and the scatter-add stay closed) leaves the network's spelling of the aggregate. -/

/-- The aggregate weighted by the real parts of the edge coefficients. -/
theorem aggRe0_eq : val_main_v22 (F := Ideal) x0 x1 x2 x3 =
    Cert.Gnn.agg75 (x0) (Cert.Gnn.srcOf x1) (Cert.Gnn.dstOf x1) (Cert.Gnn.crOf x2 x3) := by
  unfold val_main_v22 val_main_v21 val_main_v20 val_main_v19 val_main_v18 val_main_v17 val_main_v16 val_main_v15 val_main_v14 val_main_v13 val_main_v12 val_main_v11 val_main_v10 val_main_v6 val_main_v5 val_main_v4 val_main_v3 val_main_v2 val_main_v1 val_main_v0 val_main_c val_main_c_0 val_main_cst
    Cert.Gnn.agg75 Cert.Gnn.startsOf Cert.Gnn.srcOf Cert.Gnn.dstOf Cert.Gnn.crOf
  rfl

/-- The aggregate weighted by the imaginary parts. -/
theorem aggIm0_eq : val_main_v28 (F := Ideal) x0 x1 x2 x3 =
    Cert.Gnn.agg75 (x0) (Cert.Gnn.srcOf x1) (Cert.Gnn.dstOf x1) (Cert.Gnn.ciOf x2 x3) := by
  unfold val_main_v28 val_main_v27 val_main_v26 val_main_v25 val_main_v24 val_main_v23 val_main_v16 val_main_v15 val_main_v14 val_main_v13 val_main_v12 val_main_v11 val_main_v10 val_main_v9 val_main_v8 val_main_v7 val_main_v3 val_main_v2 val_main_v1 val_main_v0 val_main_c val_main_c_0 val_main_cst_1
    Cert.Gnn.agg75 Cert.Gnn.startsOf Cert.Gnn.srcOf Cert.Gnn.dstOf Cert.Gnn.ciOf
  rfl

/-! ## The dense step's pieces at node `p`, channel `q` -/

/-- The real-part projection: the real aggregate contracted with the filter `x4`. -/
theorem projRe0_at (p : Fin 50000) (q : Fin 128) : val_main_v29 (F := Ideal) x0 x1 x2 x3 x4 (ix2 p q) =
    Cert.DenseStep.proj (N := 50000) (K := 75) (M := 128) (val_main_v22 (F := Ideal) x0 x1 x2 x3) x4 p q :=
  (val_main_v29_apply x0 x1 x2 x3 x4 (ix2 p q)).trans
    (proj_of_reads (N := 50000) (K := 75) (M := 128) _ _ p q _ _ (fun _ => funext fun a => Fin.ext (by match a with | ⟨0, _⟩ => rfl | ⟨1, _⟩ => rfl)) (fun _ => funext fun a => Fin.ext (by match a with | ⟨0, _⟩ => rfl | ⟨1, _⟩ => rfl)))

/-- The imaginary-part projection: the imaginary aggregate contracted with the filter `x5`. -/
theorem projIm0_at (p : Fin 50000) (q : Fin 128) : val_main_v30 (F := Ideal) x0 x1 x2 x3 x5 (ix2 p q) =
    Cert.DenseStep.proj (N := 50000) (K := 75) (M := 128) (val_main_v28 (F := Ideal) x0 x1 x2 x3) x5 p q :=
  (val_main_v30_apply x0 x1 x2 x3 x5 (ix2 p q)).trans
    (proj_of_reads (N := 50000) (K := 75) (M := 128) _ _ p q _ _ (fun _ => funext fun a => Fin.ext (by match a with | ⟨0, _⟩ => rfl | ⟨1, _⟩ => rfl)) (fun _ => funext fun a => Fin.ext (by match a with | ⟨0, _⟩ => rfl | ⟨1, _⟩ => rfl)))

/-- The residual product: the layer's input contracted with the transposed residual weight. -/
theorem projRes0_at (p : Fin 50000) (q : Fin 128) : val_main_v36 (F := Ideal) x0 x7 (ix2 p q) =
    Cert.DenseStep.proj (N := 50000) (K := 75) (M := 128) (x0) (val_main_v35 (F := Ideal) x7) p q :=
  (val_main_v36_apply x0 x7 (ix2 p q)).trans
    (proj_of_reads (N := 50000) (K := 75) (M := 128) _ _ p q _ _ (fun _ => funext fun a => Fin.ext (by match a with | ⟨0, _⟩ => rfl | ⟨1, _⟩ => rfl)) (fun _ => funext fun a => Fin.ext (by match a with | ⟨0, _⟩ => rfl | ⟨1, _⟩ => rfl)))

/-- The first bias, broadcast along the nodes, reads entry `q`. -/
theorem biasC0_at (p : Fin 50000) (q : Fin 128) : val_main_v33 (F := Ideal) x6 (ix2 p q) = x6 (ix1 q) := by
  rw [val_main_v33_apply, val_main_v32_apply]
  exact congrArg x6 (funext fun a => Fin.ext (by match a with | ⟨0, _⟩ => rfl))

/-- The second bias likewise. -/
theorem biasL0_at (p : Fin 50000) (q : Fin 128) : val_main_v39 (F := Ideal) x8 (ix2 p q) = x8 (ix1 q) := by
  rw [val_main_v39_apply, val_main_v38_apply]
  exact congrArg x8 (funext fun a => Fin.ext (by match a with | ⟨0, _⟩ => rfl))

/-- The rectification's second operand is the zero array. -/
theorem reluZero0_at (i : S50000x128.Idx) : val_main_call0_v0 (F := Ideal) i = (0 : EReal) := by
  rw [val_main_call0_v0_apply, val_main_call0_cst_apply]
  exact Ideal.ofBits_zero_f32

/-! ## The layer -/

/-- The reference's first rectified stage is layer 0 of the network, applied to the node features, the two rows of the edge list and the two coefficient vectors. -/
theorem layer0_eq : val_main_v41 (F := Ideal) x0 x1 x2 x3 x4 x5 x6 x7 x8 =
    Cert.Gnn.layer0 (x0) (Cert.Gnn.srcOf x1) (Cert.Gnn.dstOf x1) (Cert.Gnn.crOf x2 x3) (Cert.Gnn.ciOf x2 x3)
      x4 x5 x6 x7 x8 := by
  funext i
  obtain ⟨p, q, rfl⟩ : ∃ (p : Fin 50000) (q : Fin 128), i = ix2 p q := ⟨i 0, i 1, eq_ix2 i⟩
  unfold Cert.Gnn.layer0
  rw [Cert.DenseStep.dense_apply, ← Cert.DenseStep.eltSplit_eq, ← aggRe0_eq x0 x1 x2 x3, ← aggIm0_eq x0 x1 x2 x3]
  rw [val_main_v41_apply, val_main_v40_apply, val_main_v37_apply, val_main_v34_apply,
    val_main_v31_apply, projRe0_at, projIm0_at, projRes0_at, biasC0_at, biasL0_at, reluZero0_at]
  rfl

end Cert.RefNet

end
-- ==== Proof.RefLayer1.lean ====
/-
  Layer 1 of the reference program.

  The same dense step as layer 0 at 128 input and 128 output channels, applied to the reference's own layer-0 output.
  That output enters only as the array the rows are gathered from and as the left factor of the residual product, so it
  is never opened: the statement is about whatever array the earlier stage is.
-/
import proofs.«180355_j26706106646645_1_alg».proof.Proof.Gen.ReferenceIdeal.Read
import proofs.«180355_j26706106646645_1_alg».proof.Proof.Layers
import proofs.«180355_j26706106646645_1_alg».proof.Proof.RefReads

noncomputable section

namespace Cert.RefNet

open Cert.ReferenceIdeal Cert.ReferenceIdeal.Gen Cert.ReferenceIdeal.Read Idealize.ShloMosaic Idealize.ShloMosaic.ValueIdx
  Idealize.ShloMosaic.TcCoe Idealize.SL.Sem

variable (x0 : (⟨S50000x75, .f32⟩ : BufTy).Contents (Elt Ideal)) (x1 : (⟨S2x600000, .i32⟩ : BufTy).Contents (Elt Ideal))
  (x2 : (⟨S600000, .f32⟩ : BufTy).Contents (Elt Ideal)) (x3 : (⟨S600000x2, .f32⟩ : BufTy).Contents (Elt Ideal))
  (x4 x5 : (⟨S75x128, .f32⟩ : BufTy).Contents (Elt Ideal)) (x6 : (⟨S128, .f32⟩ : BufTy).Contents (Elt Ideal))
  (x7 : (⟨S128x75, .f32⟩ : BufTy).Contents (Elt Ideal)) (x8 : (⟨S128, .f32⟩ : BufTy).Contents (Elt Ideal))
  (x9 x10 : (⟨S128x128, .f32⟩ : BufTy).Contents (Elt Ideal)) (x11 : (⟨S128, .f32⟩ : BufTy).Contents (Elt Ideal))
  (x12 : (⟨S128x128, .f32⟩ : BufTy).Contents (Elt Ideal)) (x13 : (⟨S128, .f32⟩ : BufTy).Contents (Elt Ideal))
  (x14 x15 : (⟨S128x32, .f32⟩ : BufTy).Contents (Elt Ideal)) (x16 : (⟨S32, .f32⟩ : BufTy).Contents (Elt Ideal))
  (x17 : (⟨S32x128, .f32⟩ : BufTy).Contents (Elt Ideal)) (x18 : (⟨S32, .f32⟩ : BufTy).Contents (Elt Ideal))

/-! ## The two aggregates

Both programs gather the rows `x (src e)`, multiply by the broadcast coefficient and scatter-add into zeros with the
same host operations; the reference only names every intermediate array. Unfolding those names (and nothing else:
the gather and the scatter-add stay closed) leaves the network's spelling of the aggregate. -/

/-- The aggregate weighted by the real parts of the edge coefficients. -/
theorem aggRe1_eq : val_main_v54 (F := Ideal) x0 x1 x2 x3 x4 x5 x6 x7 x8 =
    Cert.Gnn.agg128 (val_main_v41 (F := Ideal) x0 x1 x2 x3 x4 x5 x6 x7 x8) (Cert.Gnn.srcOf x1) (Cert.Gnn.dstOf x1) (Cert.Gnn.crOf x2 x3) := by
  unfold val_main_v54 val_main_v53 val_main_v52 val_main_v51 val_main_v50 val_main_v49 val_main_v48 val_main_v47 val_main_v46 val_main_v45 val_main_v44 val_main_v43 val_main_v42 val_main_v6 val_main_v5 val_main_v4 val_main_v3 val_main_v2 val_main_v1 val_main_v0 val_main_c_2 val_main_c_3 val_main_cst_4
    Cert.Gnn.agg128 Cert.Gnn.startsOf Cert.Gnn.srcOf Cert.Gnn.dstOf Cert.Gnn.crOf
  rfl

/-- The aggregate weighted by the imaginary parts. -/
theorem aggIm1_eq : val_main_v60 (F := Ideal) x0 x1 x2 x3 x4 x5 x6 x7 x8 =
    Cert.Gnn.agg128 (val_main_v41 (F := Ideal) x0 x1 x2 x3 x4 x5 x6 x7 x8) (Cert.Gnn.srcOf x1) (Cert.Gnn.dstOf x1) (Cert.Gnn.ciOf x2 x3) := by
  unfold val_main_v60 val_main_v59 val_main_v58 val_main_v57 val_main_v56 val_main_v55 val_main_v48 val_main_v47 val_main_v46 val_main_v45 val_main_v44 val_main_v43 val_main_v42 val_main_v9 val_main_v8 val_main_v7 val_main_v3 val_main_v2 val_main_v1 val_main_v0 val_main_c_2 val_main_c_3 val_main_cst_5
    Cert.Gnn.agg128 Cert.Gnn.startsOf Cert.Gnn.srcOf Cert.Gnn.dstOf Cert.Gnn.ciOf
  rfl

/-! ## The dense step's pieces at node `p`, channel `q` -/

/-- The real-part projection: the real aggregate contracted with the filter `x9`. -/
theorem projRe1_at (p : Fin 50000) (q : Fin 128) : val_main_v61 (F := Ideal) x0 x1 x2 x3 x4 x5 x6 x7 x8 x9 (ix2 p q) =
    Cert.DenseStep.proj (N := 50000) (K := 128) (M := 128) (val_main_v54 (F := Ideal) x0 x1 x2 x3 x4 x5 x6 x7 x8) x9 p q :=
  (val_main_v61_apply x0 x1 x2 x3 x4 x5 x6 x7 x8 x9 (ix2 p q)).trans
    (proj_of_reads (N := 50000) (K := 128) (M := 128) _ _ p q _ _ (fun _ => funext fun a => Fin.ext (by match a with | ⟨0, _⟩ => rfl | ⟨1, _⟩ => rfl)) (fun _ => funext fun a => Fin.ext (by match a with | ⟨0, _⟩ => rfl | ⟨1, _⟩ => rfl)))

/-- The imaginary-part projection: the imaginary aggregate contracted with the filter `x10`. -/
theorem projIm1_at (p : Fin 50000) (q : Fin 128) : val_main_v62 (F := Ideal) x0 x1 x2 x3 x4 x5 x6 x7 x8 x10 (ix2 p q) =
    Cert.DenseStep.proj (N := 50000) (K := 128) (M := 128) (val_main_v60 (F := Ideal) x0 x1 x2 x3 x4 x5 x6 x7 x8) x10 p q :=
  (val_main_v62_apply x0 x1 x2 x3 x4 x5 x6 x7 x8 x10 (ix2 p q)).trans
    (proj_of_reads (N := 50000) (K := 128) (M := 128) _ _ p q _ _ (fun _ => funext fun a => Fin.ext (by match a with | ⟨0, _⟩ => rfl | ⟨1, _⟩ => rfl)) (fun _ => funext fun a => Fin.ext (by match a with | ⟨0, _⟩ => rfl | ⟨1, _⟩ => rfl)))

/-- The residual product: the layer's input contracted with the transposed residual weight. -/
theorem projRes1_at (p : Fin 50000) (q : Fin 128) : val_main_v68 (F := Ideal) x0 x1 x2 x3 x4 x5 x6 x7 x8 x12 (ix2 p q) =
    Cert.DenseStep.proj (N := 50000) (K := 128) (M := 128) (val_main_v41 (F := Ideal) x0 x1 x2 x3 x4 x5 x6 x7 x8) (val_main_v67 (F := Ideal) x12) p q :=
  (val_main_v68_apply x0 x1 x2 x3 x4 x5 x6 x7 x8 x12 (ix2 p q)).trans
    (proj_of_reads (N := 50000) (K := 128) (M := 128) _ _ p q _ _ (fun _ => funext fun a => Fin.ext (by match a with | ⟨0, _⟩ => rfl | ⟨1, _⟩ => rfl)) (fun _ => funext fun a => Fin.ext (by match a with | ⟨0, _⟩ => rfl | ⟨1, _⟩ => rfl)))

/-- The first bias, broadcast along the nodes, reads entry `q`. -/
theorem biasC1_at (p : Fin 50000) (q : Fin 128) : val_main_v65 (F := Ideal) x11 (ix2 p q) = x11 (ix1 q) := by
  rw [val_main_v65_apply, val_main_v64_apply]
  exact congrArg x11 (funext fun a => Fin.ext (by match a with | ⟨0, _⟩ => rfl))

/-- The second bias likewise. -/
theorem biasL1_at (p : Fin 50000) (q : Fin 128) : val_main_v71 (F := Ideal) x13 (ix2 p q) = x13 (ix1 q) := by
  rw [val_main_v71_apply, val_main_v70_apply]
  exact congrArg x13 (funext fun a => Fin.ext (by match a with | ⟨0, _⟩ => rfl))

/-- The rectification's second operand is the zero array. -/
theorem reluZero1_at (i : S50000x128.Idx) : val_main_call1_v0 (F := Ideal) i = (0 : EReal) := by
  rw [val_main_call1_v0_apply, val_main_call1_cst_apply]
  exact Ideal.ofBits_zero_f32

/-! ## The layer -/

/-- The reference's second rectified stage is layer 1 of the network applied to its first rectified stage, which stays a closed term here. -/
theorem layer1_eq : val_main_v73 (F := Ideal) x0 x1 x2 x3 x4 x5 x6 x7 x8 x9 x10 x11 x12 x13 =
    Cert.Gnn.layer1 (val_main_v41 (F := Ideal) x0 x1 x2 x3 x4 x5 x6 x7 x8) (Cert.Gnn.srcOf x1) (Cert.Gnn.dstOf x1) (Cert.Gnn.crOf x2 x3) (Cert.Gnn.ciOf x2 x3)
      x9 x10 x11 x12 x13 := by
  funext i
  obtain ⟨p, q, rfl⟩ : ∃ (p : Fin 50000) (q : Fin 128), i = ix2 p q := ⟨i 0, i 1, eq_ix2 i⟩
  unfold Cert.Gnn.layer1
  rw [Cert.DenseStep.dense_apply, ← Cert.DenseStep.eltSplit_eq, ← aggRe1_eq x0 x1 x2 x3 x4 x5 x6 x7 x8, ← aggIm1_eq x0 x1 x2 x3 x4 x5 x6 x7 x8]
  rw [val_main_v73_apply, val_main_v72_apply, val_main_v69_apply, val_main_v66_apply,
    val_main_v63_apply, projRe1_at, projIm1_at, projRes1_at, biasC1_at, biasL1_at, reluZero1_at]
  rfl

end Cert.RefNet

end
-- ==== Proof.RefLayer2.lean ====
/-
  Layer 2 of the reference program.

  The same dense step at 128 input and 32 output channels, applied to the reference's own layer-1 output, which is
  never opened.
-/
import proofs.«180355_j26706106646645_1_alg».proof.Proof.Gen.ReferenceIdeal.Read
import proofs.«180355_j26706106646645_1_alg».proof.Proof.Layers
import proofs.«180355_j26706106646645_1_alg».proof.Proof.RefReads

noncomputable section

namespace Cert.RefNet

open Cert.ReferenceIdeal Cert.ReferenceIdeal.Gen Cert.ReferenceIdeal.Read Idealize.ShloMosaic Idealize.ShloMosaic.ValueIdx
  Idealize.ShloMosaic.TcCoe Idealize.SL.Sem

variable (x0 : (⟨S50000x75, .f32⟩ : BufTy).Contents (Elt Ideal)) (x1 : (⟨S2x600000, .i32⟩ : BufTy).Contents (Elt Ideal))
  (x2 : (⟨S600000, .f32⟩ : BufTy).Contents (Elt Ideal)) (x3 : (⟨S600000x2, .f32⟩ : BufTy).Contents (Elt Ideal))
  (x4 x5 : (⟨S75x128, .f32⟩ : BufTy).Contents (Elt Ideal)) (x6 : (⟨S128, .f32⟩ : BufTy).Contents (Elt Ideal))
  (x7 : (⟨S128x75, .f32⟩ : BufTy).Contents (Elt Ideal)) (x8 : (⟨S128, .f32⟩ : BufTy).Contents (Elt Ideal))
  (x9 x10 : (⟨S128x128, .f32⟩ : BufTy).Contents (Elt Ideal)) (x11 : (⟨S128, .f32⟩ : BufTy).Contents (Elt Ideal))
  (x12 : (⟨S128x128, .f32⟩ : BufTy).Contents (Elt Ideal)) (x13 : (⟨S128, .f32⟩ : BufTy).Contents (Elt Ideal))
  (x14 x15 : (⟨S128x32, .f32⟩ : BufTy).Contents (Elt Ideal)) (x16 : (⟨S32, .f32⟩ : BufTy).Contents (Elt Ideal))
  (x17 : (⟨S32x128, .f32⟩ : BufTy).Contents (Elt Ideal)) (x18 : (⟨S32, .f32⟩ : BufTy).Contents (Elt Ideal))

/-! ## The two aggregates

Both programs gather the rows `x (src e)`, multiply by the broadcast coefficient and scatter-add into zeros with the
same host operations; the reference only names every intermediate array. Unfolding those names (and nothing else:
the gather and the scatter-add stay closed) leaves the network's spelling of the aggregate. -/

/-- The aggregate weighted by the real parts of the edge coefficients. -/
theorem aggRe2_eq : val_main_v86 (F := Ideal) x0 x1 x2 x3 x4 x5 x6 x7 x8 x9 x10 x11 x12 x13 =
    Cert.Gnn.agg128 (val_main_v73 (F := Ideal) x0 x1 x2 x3 x4 x5 x6 x7 x8 x9 x10 x11 x12 x13) (Cert.Gnn.srcOf x1) (Cert.Gnn.dstOf x1) (Cert.Gnn.crOf x2 x3) := by
  unfold val_main_v86 val_main_v85 val_main_v84 val_main_v83 val_main_v82 val_main_v81 val_main_v80 val_main_v79 val_main_v78 val_main_v77 val_main_v76 val_main_v75 val_main_v74 val_main_v6 val_main_v5 val_main_v4 val_main_v3 val_main_v2 val_main_v1 val_main_v0 val_main_c_6 val_main_c_7 val_main_cst_8
    Cert.Gnn.agg128 Cert.Gnn.startsOf Cert.Gnn.srcOf Cert.Gnn.dstOf Cert.Gnn.crOf
  rfl

/-- The aggregate weighted by the imaginary parts. -/
theorem aggIm2_eq : val_main_v92 (F := Ideal) x0 x1 x2 x3 x4 x5 x6 x7 x8 x9 x10 x11 x12 x13 =
    Cert.Gnn.agg128 (val_main_v73 (F := Ideal) x0 x1 x2 x3 x4 x5 x6 x7 x8 x9 x10 x11 x12 x13) (Cert.Gnn.srcOf x1) (Cert.Gnn.dstOf x1) (Cert.Gnn.ciOf x2 x3) := by
  unfold val_main_v92 val_main_v91 val_main_v90 val_main_v89 val_main_v88 val_main_v87 val_main_v80 val_main_v79 val_main_v78 val_main_v77 val_main_v76 val_main_v75 val_main_v74 val_main_v9 val_main_v8 val_main_v7 val_main_v3 val_main_v2 val_main_v1 val_main_v0 val_main_c_6 val_main_c_7 val_main_cst_9
    Cert.Gnn.agg128 Cert.Gnn.startsOf Cert.Gnn.srcOf Cert.Gnn.dstOf Cert.Gnn.ciOf
  rfl

/-! ## The dense step's pieces at node `p`, channel `q` -/

/-- The real-part projection: the real aggregate contracted with the filter `x14`. -/
theorem projRe2_at (p : Fin 50000) (q : Fin 32) : val_main_v93 (F := Ideal) x0 x1 x2 x3 x4 x5 x6 x7 x8 x9 x10 x11 x12 x13 x14 (ix2 p q) =
    Cert.DenseStep.proj (N := 50000) (K := 128) (M := 32) (val_main_v86 (F := Ideal) x0 x1 x2 x3 x4 x5 x6 x7 x8 x9 x10 x11 x12 x13) x14 p q :=
  (val_main_v93_apply x0 x1 x2 x3 x4 x5 x6 x7 x8 x9 x10 x11 x12 x13 x14 (ix2 p q)).trans
    (proj_of_reads (N := 50000) (K := 128) (M := 32) _ _ p q _ _ (fun _ => funext fun a => Fin.ext (by match a with | ⟨0, _⟩ => rfl | ⟨1, _⟩ => rfl)) (fun _ => funext fun a => Fin.ext (by match a with | ⟨0, _⟩ => rfl | ⟨1, _⟩ => rfl)))

/-- The imaginary-part projection: the imaginary aggregate contracted with the filter `x15`. -/
theorem projIm2_at (p : Fin 50000) (q : Fin 32) : val_main_v94 (F := Ideal) x0 x1 x2 x3 x4 x5 x6 x7 x8 x9 x10 x11 x12 x13 x15 (ix2 p q) =
    Cert.DenseStep.proj (N := 50000) (K := 128) (M := 32) (val_main_v92 (F := Ideal) x0 x1 x2 x3 x4 x5 x6 x7 x8 x9 x10 x11 x12 x13) x15 p q :=
  (val_main_v94_apply x0 x1 x2 x3 x4 x5 x6 x7 x8 x9 x10 x11 x12 x13 x15 (ix2 p q)).trans
    (proj_of_reads (N := 50000) (K := 128) (M := 32) _ _ p q _ _ (fun _ => funext fun a => Fin.ext (by match a with | ⟨0, _⟩ => rfl | ⟨1, _⟩ => rfl)) (fun _ => funext fun a => Fin.ext (by match a with | ⟨0, _⟩ => rfl | ⟨1, _⟩ => rfl)))

/-- The residual product: the layer's input contracted with the transposed residual weight. -/
theorem projRes2_at (p : Fin 50000) (q : Fin 32) : val_main_v100 (F := Ideal) x0 x1 x2 x3 x4 x5 x6 x7 x8 x9 x10 x11 x12 x13 x17 (ix2 p q) =
    Cert.DenseStep.proj (N := 50000) (K := 128) (M := 32) (val_main_v73 (F := Ideal) x0 x1 x2 x3 x4 x5 x6 x7 x8 x9 x10 x11 x12 x13) (val_main_v99 (F := Ideal) x17) p q :=
  (val_main_v100_apply x0 x1 x2 x3 x4 x5 x6 x7 x8 x9 x10 x11 x12 x13 x17 (ix2 p q)).trans
    (proj_of_reads (N := 50000) (K := 128) (M := 32) _ _ p q _ _ (fun _ => funext fun a => Fin.ext (by match a with | ⟨0, _⟩ => rfl | ⟨1, _⟩ => rfl)) (fun _ => funext fun a => Fin.ext (by match a with | ⟨0, _⟩ => rfl | ⟨1, _⟩ => rfl)))

/-- The first bias, broadcast along the nodes, reads entry `q`. -/
theorem biasC2_at (p : Fin 50000) (q : Fin 32) : val_main_v97 (F := Ideal) x16 (ix2 p q) = x16 (ix1 q) := by
  rw [val_main_v97_apply, val_main_v96_apply]
  exact congrArg x16 (funext fun a => Fin.ext (by match a with | ⟨0, _⟩ => rfl))

/-- The second bias likewise. -/
theorem biasL2_at (p : Fin 50000) (q : Fin 32) : val_main_v103 (F := Ideal) x18 (ix2 p q) = x18 (ix1 q) := by
  rw [val_main_v103_apply, val_main_v102_apply]
  exact congrArg x18 (funext fun a => Fin.ext (by match a with | ⟨0, _⟩ => rfl))

/-- The rectification's second operand is the zero array. -/
theorem reluZero2_at (i : S50000x32.Idx) : val_main_call2_v0 (F := Ideal) i = (0 : EReal) := by
  rw [val_main_call2_v0_apply, val_main_call2_cst_apply]
  exact Ideal.ofBits_zero_f32

/-! ## The layer -/

/-- The reference's last rectified stage, its result, is layer 2 of the network applied to its second rectified stage, which stays a closed term here. -/
theorem layer2_eq : val_main_v105 (F := Ideal) x0 x1 x2 x3 x4 x5 x6 x7 x8 x9 x10 x11 x12 x13 x14 x15 x16 x17 x18 =
    Cert.Gnn.layer2 (val_main_v73 (F := Ideal) x0 x1 x2 x3 x4 x5 x6 x7 x8 x9 x10 x11 x12 x13) (Cert.Gnn.srcOf x1) (Cert.Gnn.dstOf x1) (Cert.Gnn.crOf x2 x3) (Cert.Gnn.ciOf x2 x3)
      x14 x15 x16 x17 x18 := by
  funext i
  obtain ⟨p, q, rfl⟩ : ∃ (p : Fin 50000) (q : Fin 32), i = ix2 p q := ⟨i 0, i 1, eq_ix2 i⟩
  unfold Cert.Gnn.layer2
  rw [Cert.DenseStep.dense_apply, ← Cert.DenseStep.eltSplit_eq, ← aggRe2_eq x0 x1 x2 x3 x4 x5 x6 x7 x8 x9 x10 x11 x12 x13, ← aggIm2_eq x0 x1 x2 x3 x4 x5 x6 x7 x8 x9 x10 x11 x12 x13]
  rw [val_main_v105_apply, val_main_v104_apply, val_main_v101_apply, val_main_v98_apply,
    val_main_v95_apply, projRe2_at, projIm2_at, projRes2_at, biasC2_at, biasL2_at, reluZero2_at]
  rfl

end Cert.RefNet

end
-- ==== Proof.RefNet.lean ====
/-
  The reference program's result is the network of its nineteen arguments.

  The result is the last rectified stage; each rectified stage is one layer applied to the stage before it
  (`layer0_eq`, `layer1_eq`, `layer2_eq`), and the three layers in sequence are `Cert.Gnn.net`.
-/
import proofs.«180355_j26706106646645_1_alg».proof.Proof.RefLayer0
import proofs.«180355_j26706106646645_1_alg».proof.Proof.RefLayer1
import proofs.«180355_j26706106646645_1_alg».proof.Proof.RefLayer2

noncomputable section

namespace Cert.RefNet

open Cert.ReferenceIdeal Cert.ReferenceIdeal.Gen Cert.ReferenceIdeal.Read Idealize.ShloMosaic Idealize.ShloMosaic.ValueIdx
  Idealize.ShloMosaic.TcCoe Idealize.SL.Sem

variable (x0 : (⟨S50000x75, .f32⟩ : BufTy).Contents (Elt Ideal)) (x1 : (⟨S2x600000, .i32⟩ : BufTy).Contents (Elt Ideal))
  (x2 : (⟨S600000, .f32⟩ : BufTy).Contents (Elt Ideal)) (x3 : (⟨S600000x2, .f32⟩ : BufTy).Contents (Elt Ideal))
  (x4 x5 : (⟨S75x128, .f32⟩ : BufTy).Contents (Elt Ideal)) (x6 : (⟨S128, .f32⟩ : BufTy).Contents (Elt Ideal))
  (x7 : (⟨S128x75, .f32⟩ : BufTy).Contents (Elt Ideal)) (x8 : (⟨S128, .f32⟩ : BufTy).Contents (Elt Ideal))
  (x9 x10 : (⟨S128x128, .f32⟩ : BufTy).Contents (Elt Ideal)) (x11 : (⟨S128, .f32⟩ : BufTy).Contents (Elt Ideal))
  (x12 : (⟨S128x128, .f32⟩ : BufTy).Contents (Elt Ideal)) (x13 : (⟨S128, .f32⟩ : BufTy).Contents (Elt Ideal))
  (x14 x15 : (⟨S128x32, .f32⟩ : BufTy).Contents (Elt Ideal)) (x16 : (⟨S32, .f32⟩ : BufTy).Contents (Elt Ideal))
  (x17 : (⟨S32x128, .f32⟩ : BufTy).Contents (Elt Ideal)) (x18 : (⟨S32, .f32⟩ : BufTy).Contents (Elt Ideal))

/-- The last stage as the network of the arguments. -/
theorem net_eq : val_main_v105 (F := Ideal) x0 x1 x2 x3 x4 x5 x6 x7 x8 x9 x10 x11 x12 x13 x14 x15 x16 x17 x18 =
    Cert.Gnn.net x0 x1 x2 x3 x4 x5 x6 x7 x8 x9 x10 x11 x12 x13 x14 x15 x16 x17 x18 := by
  rw [layer2_eq, layer1_eq, layer0_eq]
  rfl

/-- The result the reference's run leaves, for any launch contents `m`: the network of the argument arrays. -/
theorem ref_result (m : (ℓ : Loc nD τ sig) → Buf (Elt Ideal) ℓ) (c : Dev nD) :
    Cert.ReferenceIdeal.Value.res_main_v105 (F := Ideal) m c =
      Cert.Gnn.net (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
        (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  rw [val_main_v105_eq, net_eq]

end Cert.RefNet

end
-- ==== Proof.lean ====
/-
  A three-layer graph encoder against its plain reference, over the extended reals.

  Each layer gathers every edge's source row of the node features, scales it by the edge's complex coefficient
  (weight · (sim₀ + i · sim₁)), adds it into the edge's destination row (two aggregates, real and imaginary), and then
  takes, node by node, max (agg_r · wr − agg_i · wi + x · lwᵀ + bias) 0. The kernel does the gather and scatter-add on the
  host and the dense step in a pipelined region tiled over 25 blocks of 2000 nodes, adding the sum of the two biases
  last; the reference is the same host aggregation followed by whole-array products, adding one bias before the
  residual product and one after it.

  Both results are the same function `Cert.Gnn.net` of the nineteen argument arrays:
    * the kernel's, by reading the result buffer through the contents at the boundaries of @main's six segments
      (`Cert.KernelIdeal.Fold.result`), each region's output array being the dense step of its operand arrays
      (blocks of 2000 rows are restrictions of one whole-array function, and a block's contraction over its own rows
      is the whole array's);
    * the reference's, stage by stage (`Cert.RefNet.ref_result`), the two bias orders joined by commutativity and
      associativity of addition of extended reals (`Cert.DenseStep.eltSplit_eq`), which hold at infinities too, so the
      finiteness precondition is never opened.
  The aggregation is the same host operations on both sides and is carried as an opaque function. The idealization
  rewrote nothing in the kernel, so the preservation claim is trivial. Each kernel program terminates without a fault
  with its arguments unchanged by the imported frame theorem; the reference, which launches no kernel, does so as a
  consequence of its run.
-/
import proofs.«180355_j26706106646645_1_alg».proof.Defs
import proofs.«180355_j26706106646645_1_alg».proof.Proof.Gen.Kernel
import proofs.«180355_j26706106646645_1_alg».proof.Proof.Gen.Kernel.Skeleton
import proofs.«180355_j26706106646645_1_alg».proof.Proof.Gen.Kernel.Launch
import proofs.«180355_j26706106646645_1_alg».proof.Proof.Gen.Kernel.Points
import proofs.«180355_j26706106646645_1_alg».proof.Proof.Gen.Kernel.Frame
import proofs.«180355_j26706106646645_1_alg».proof.Proof.Gen.KernelIdeal
import proofs.«180355_j26706106646645_1_alg».proof.Proof.Gen.KernelIdeal.Skeleton
import proofs.«180355_j26706106646645_1_alg».proof.Proof.Gen.KernelIdeal.Launch
import proofs.«180355_j26706106646645_1_alg».proof.Proof.Gen.KernelIdeal.Points
import proofs.«180355_j26706106646645_1_alg».proof.Proof.Gen.KernelIdeal.Frame
import proofs.«180355_j26706106646645_1_alg».proof.Proof.Gen.ReferenceIdeal
import proofs.«180355_j26706106646645_1_alg».proof.Proof.Gen.ReferenceIdeal.Run
import proofs.«180355_j26706106646645_1_alg».proof.Proof.Gen.ReferenceIdeal.Read
import proofs.«180355_j26706106646645_1_alg».proof.Proof.Gen.Pre_finite_inputs
import proofs.«180355_j26706106646645_1_alg».proof.Proof.KernelRun
import proofs.«180355_j26706106646645_1_alg».proof.Proof.Fold
import proofs.«180355_j26706106646645_1_alg».proof.Proof.RefNet
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories agreeing on the arguments both programs end with the network of those arguments in their result
    buffers, and with the arguments unchanged. -/
theorem algebraic : Cert.algebraic_KernelIdeal_ReferenceIdeal := by
  intro m ρ m' ρ' _ hagree
  refine ⟨fun c => Cert.Gnn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.Fold.result m ρ c), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18⟩ := hagree c
    rw [Cert.RefNet.ref_result m' c, h0, h1, h2, h3, h4, h5, h6, h7, h8, h9, h10, h11, h12, h13, h14, h15, h16, h17, h18]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
